-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S8192x128 .f32) (main_arg1 : FVec F S8192x8192 .f32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S2x8192x1 : Shape := ⟨3, ![2, 8192, 1]⟩
abbrev S512x128 : Shape := ⟨2, ![512, 128]⟩
abbrev S512x4096 : Shape := ⟨2, ![512, 4096]⟩
abbrev S4096x128 : Shape := ⟨2, ![4096, 128]⟩
abbrev S1x512x1 : Shape := ⟨3, ![1, 512, 1]⟩
abbrev S512 : Shape := ⟨1, ![512]⟩
abbrev S512x1 : Shape := ⟨2, ![512, 1]⟩
abbrev S1x8192x1 : Shape := ⟨3, ![1, 8192, 1]⟩
abbrev S8192x1 : Shape := ⟨2, ![8192, 1]⟩

abbrev nBuf : Space → Nat
  | .hbm => 15
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S8192x128, .f32⟩
  | .hbm, ⟨13, _⟩ => ⟨S2x8192x1, .f32⟩
  | .hbm, ⟨14, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S512x4096, .f32⟩
  | .local _ .vmem, ⟨3, _⟩ => ⟨S512x4096, .f32⟩
  | .local _ .vmem, ⟨4, _⟩ => ⟨S4096x128, .f32⟩
  | .local _ .vmem, ⟨5, _⟩ => ⟨S4096x128, .f32⟩
  | .local _ .vmem, ⟨6, _⟩ => ⟨S1x512x1, .f32⟩
  | .local _ .vmem, ⟨7, _⟩ => ⟨S1x512x1, .f32⟩
  | .local _ .vmem, ⟨8, _⟩ => ⟨S8192x128, .f32⟩
  | .local _ .vmem, ⟨9, _⟩ => ⟨S2x8192x1, .f32⟩
  | .local _ .vmem, ⟨10, _⟩ => ⟨S8192x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S8192x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x8192x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8192x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  reduces_S512x4096_S512 : S512x4096.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  bitsLt_bf16_f32 : FTy.bits .bf16 < FTy.bits .f32
  shapeCasts_S4096x128_S4096x128 : S4096x128.ShapeCasts S4096x128
  inb_S2x8192x1_S1x8192x1_0_0_0 : ∀ a, (![0, 0, 0] : Fin 3 → Nat) a + S1x8192x1.size a ≤ S2x8192x1.size a
  h_S1x8192x1 : 0 < S1x8192x1.numel
  shapeCasts_S1x8192x1_S8192x1 : S1x8192x1.ShapeCasts S8192x1
  inb_S2x8192x1_S1x8192x1_1_0_0 : ∀ a, (![1, 0, 0] : Fin 3 → Nat) a + S1x8192x1.size a ≤ S2x8192x1.size a
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S8192x1_S8192x128 : S8192x1.Broadcasts S8192x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reduces_S8192x128_S128 : S8192x128.Reduces [0] S128
  dot_S512x4096_S512x128_S4096x128_0_0_1_1_n_n_wf : DotDims.WF S512x4096 S512x128 S4096x128 [0] [0] [1] [1] [] []
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x8192.size a
  hwx0_1 : ∀ i : grid0.Coords, EltTy.bits .f32 = 32 ∨ (Rect.block (s := S8192x8192) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S8192x128.size a
  hwx0_2 : ∀ i : grid0.Coords, EltTy.bits .f32 = 32 ∨ (Rect.block (s := S8192x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x8192x1.size a
  hwx0_3 : ∀ i : grid0.Coords, EltTy.bits .f32 = 32 ∨ (Rect.block (s := S2x8192x1) S1x512x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S8192x128.size a
  hwx1_0 : ∀ i : grid1.Coords, EltTy.bits .f32 = 32 ∨ (Rect.block (s := S8192x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x8192x1.size a ≤ S2x8192x1.size a
  hwx1_1 : ∀ i : grid1.Coords, EltTy.bits .f32 = 32 ∨ (Rect.block (s := S2x8192x1) S2x8192x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .f32 = 32 ∨ (Rect.block (s := S8192x128) S8192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S8192x128.size a ≤ S8192x128.size a
  hwx1_9 : ∀ i : grid1.Coords, EltTy.bits .f32 = 32 ∨ (Rect.block (s := S8192x128) S8192x128.size (cc1_transform_9 i) (hinb1_9 i)).WholeWords (EltTy.packing .f32)

variable [Facts₀]

def dot_S512x4096_S512x128_S4096x128_0_0_1_1_n_n : DotDims S512x4096 S512x128 S4096x128 where
  lhsContracting := [0]
  rhsContracting := [0]
  lhsNonContracting := [1]
  rhsNonContracting := [1]
  lhsBatch := []
  rhsBatch := []
  wf := dot_S512x4096_S512x128_S4096x128_0_0_1_1_n_n_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4_0) S8192x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S2x8192x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5) S8192x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .i1⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x8192, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S128x128, .f32⟩
  | .hbm, ⟨22, _⟩ => ⟨S8192x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S128x128, .f32⟩
  | .hbm, ⟨27, _⟩ => ⟨S8192x128, .f32⟩
  | .hbm, ⟨28, _⟩ => ⟨S8192x128, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S1x128, .f32⟩
  | .hbm, ⟨57, _⟩ => ⟨S8192x128, .f32⟩
  | .hbm, ⟨58, _⟩ => ⟨S8192x128, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_cst : Ref sig .tc := ⟨.hbm, 62, rfl⟩
abbrev main_call1_v0 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  transposes_S8192x8192_S8192x8192_1_0 : S8192x8192.Transposes [1, 0] S8192x8192
  bcast_S8192x1_S8192x128_0_1 : S8192x1.BroadcastsInDim S8192x128 (![0, 1] : Fin 2 → Fin S8192x128.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S128_d0 : S8192x128.ReducesTo [0] S128
  bcast_S_S128 : S_.BroadcastsInDim S128 (![] : Fin 0 → Fin S128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Spec.lean ====
/-
  The function both programs compute, index by index, on the extended reals.

  A graph convolution with mean aggregation followed by a batch normalisation and a rectifier, on 8192 nodes with
  128 input and 128 output channels.  For the node features X, the adjacency matrix A, the two weight matrices and
  biases and the normalisation's scale and shift:
    degree n        = the sum of row n of A,
    aggregate n k   = the sum over m of A m n * X m k            (column n of A against channel k of X),
    hidden n o      = sum_k (aggregate n k / safe (degree n)) * Wn o k + bn o + sum_k X n k * Wc o k + bc o,
    output n o      = max (g o * ((hidden n o - mean o) * rsqrt (var o + eps)) + b o) 0,
  with mean and var the mean and the (biased) variance of column o of hidden over the 8192 nodes, and safe d the degree
  with a zero replaced by one.  Float literals are kept as their words: the same word on both sides is never evaluated.
-/
import Idealize.ShloMosaic.PureOps.Ideal
import Idealize.ShloMosaic.Lib.ValueIdx

noncomputable section

open scoped BigOperators

namespace Cert.GraphConv

open Idealize.ShloMosaic Idealize.ShloMosaic.ValueIdx

/-- Node features and the result: 8192 nodes by 128 channels. -/
abbrev SNodes : Shape := ⟨2, ![8192, 128]⟩
/-- The adjacency matrix. -/
abbrev SAdj : Shape := ⟨2, ![8192, 8192]⟩
/-- A weight matrix, output channel by input channel. -/
abbrev SWeight : Shape := ⟨2, ![128, 128]⟩
/-- A per-channel vector. -/
abbrev SChan : Shape := ⟨1, ![128]⟩

/-- The degree of node `n`: the sum of row `n` of the adjacency matrix. -/
def degree (A : SAdj.Idx → EReal) (n : Fin 8192) : EReal := ∑ j : Fin 8192, A (ix2 n j)

/-- A degree with zero replaced by one (the words of 0.0 and 1.0). -/
def safeDeg (d : EReal) : EReal :=
  Scalar.select (Ideal.cmp .oeq d (Ideal.ofBits .f32 0x00000000#32)) (Ideal.ofBits .f32 0x3F800000#32) d

/-- The aggregated features of node `n` in channel `k`: column `n` of the adjacency matrix against channel `k`. -/
def aggregate (X : SNodes.Idx → EReal) (A : SAdj.Idx → EReal) (n : Fin 8192) (k : Fin 128) : EReal :=
  ∑ m : Fin 8192, A (ix2 m n) * X (ix2 m k)

/-- The two linear heads and their biases, summed in the programs' order. -/
def hidden (X : SNodes.Idx → EReal) (A : SAdj.Idx → EReal) (Wn : SWeight.Idx → EReal) (bn : SChan.Idx → EReal)
    (Wc : SWeight.Idx → EReal) (bc : SChan.Idx → EReal) (n : Fin 8192) (o : Fin 128) : EReal :=
  (((∑ k : Fin 128, Ideal.div (aggregate X A n k) (safeDeg (degree A n)) * Wn (ix2 o k)) + bn (ix1 o))
    + ∑ k : Fin 128, X (ix2 n k) * Wc (ix2 o k)) + bc (ix1 o)

/-- The number of nodes, as the word of 8192.0. -/
def count : EReal := Ideal.ofBits .f32 0x46000000#32
/-- The normalisation's epsilon, as its word. -/
def eps : EReal := Ideal.ofBits .f32 0x3727C5AC#32

/-- The mean of column `o` over the nodes. -/
def colMean (h : Fin 8192 → Fin 128 → EReal) (o : Fin 128) : EReal := Ideal.div (∑ r : Fin 8192, h r o) count
/-- The biased variance of column `o` over the nodes. -/
def colVar (h : Fin 8192 → Fin 128 → EReal) (o : Fin 128) : EReal :=
  Ideal.div (∑ r : Fin 8192, (h r o - colMean h o) * (h r o - colMean h o)) count

/-- Batch normalisation over the nodes, scale and shift, then the rectifier. -/
def batchNormRelu (h : Fin 8192 → Fin 128 → EReal) (g b : Fin 128 → EReal) (n : Fin 8192) (o : Fin 128) : EReal :=
  max (g o * ((h n o - colMean h o) * Ideal.rsqrt (colVar h o + eps)) + b o) (Ideal.ofBits .f32 0x00000000#32)

/-- The result array as one function of the eight argument arrays. -/
def output (X : SNodes.Idx → EReal) (A : SAdj.Idx → EReal) (Wn : SWeight.Idx → EReal) (bn : SChan.Idx → EReal)
    (Wc : SWeight.Idx → EReal) (bc : SChan.Idx → EReal) (g b : SChan.Idx → EReal) : SNodes.Idx → EReal :=
  fun i => batchNormRelu (hidden X A Wn bn Wc bc) (fun o => g (ix1 o)) (fun o => b (ix1 o)) (i 0) (i 1)

theorem output_ix2 (X : SNodes.Idx → EReal) (A : SAdj.Idx → EReal) (Wn : SWeight.Idx → EReal) (bn : SChan.Idx → EReal)
    (Wc : SWeight.Idx → EReal) (bc : SChan.Idx → EReal) (g b : SChan.Idx → EReal) (n : Fin 8192) (o : Fin 128) :
    output X A Wn bn Wc bc g b (ix2 n o)
      = batchNormRelu (hidden X A Wn bn Wc bc) (fun o => g (ix1 o)) (fun o => b (ix1 o)) n o := rfl

/-! ## The epilogue's form: the same heads over an aggregate array and two partial degrees -/

/-- The partial degrees, one per column half. -/
abbrev SHalves : Shape := ⟨3, ![2, 8192, 1]⟩
/-- A per-channel row vector. -/
abbrev SRow : Shape := ⟨2, ![1, 128]⟩

/-- The heads as the second kernel computes them: from an aggregate array `G`, the two partial degrees `D` summed, and
    the biases as row vectors. -/
def hiddenOf (G : SNodes.Idx → EReal) (D : SHalves.Idx → EReal) (X : SNodes.Idx → EReal) (Wn : SWeight.Idx → EReal)
    (bn : SRow.Idx → EReal) (Wc : SWeight.Idx → EReal) (bc : SRow.Idx → EReal) (n : Fin 8192) (o : Fin 128) : EReal :=
  (((∑ k : Fin 128, Ideal.div (G (ix2 n k)) (safeDeg (D (ix3 0 n 0) + D (ix3 1 n 0))) * Wn (ix2 o k)) + bn (ix2 0 o))
    + ∑ k : Fin 128, X (ix2 n k) * Wc (ix2 o k)) + bc (ix2 0 o)

end Cert.GraphConv

end
-- ==== Proof.Fold.lean ====
/-
  The first kernel's two result arrays as functions of the node features X and the adjacency matrix A.

  The grid has 32 points: point n works on row tile n % 16 (512 rows) and column half n / 16 (4096 columns).  At a point
  the aggregate block (4096 target nodes of the point's half, 128 channels) receives, for target q and channel k, the sum
  over the tile's rows of A(row, column) * X(row, k), and once more with X(row, k) - X(row, k) in place of X(row, k);
  over the 16 tiles of a half these are added, in tile order, to zero.  The partial degree of node n in half p is the
  sum of row n of A over the 4096 columns of half p.
-/
import proofs.«100040_j88742614270232_2_alg».proof.Proof.Spec

noncomputable section

open scoped BigOperators

namespace Cert.GraphConv

open Idealize.ShloMosaic Idealize.ShloMosaic.ValueIdx

/-- Row `r` of the row tile of grid point `n`, as a row of the whole arrays. -/
def tileRow (n : ℕ) (r : Fin 512) : Fin 8192 := ⟨512 * (n % 16) + r.val, by have := r.isLt; have := Nat.mod_lt n (show 0 < 16 by decide); omega⟩
/-- Column `q` of the column half of grid point `n`, as a column of the adjacency matrix (equally: a target node). -/
def halfCol (n : ℕ) (q : Fin 4096) : Fin 8192 := ⟨4096 * ((n / 16) % 2) + q.val, by have := q.isLt; have := Nat.mod_lt (n / 16) (show 0 < 2 by decide); omega⟩

/-- What grid point `n` adds to its aggregate block at (q, k): the tile's rows of A against X, and against X - X. -/
def tileTerm (X : SNodes.Idx → EReal) (A : SAdj.Idx → EReal) (n : ℕ) (i : (⟨2, ![4096, 128]⟩ : Shape).Idx) : EReal :=
  (∑ r : Fin 512, A (ix2 (tileRow n r) (halfCol n (i 0))) * X (ix2 (tileRow n r) (i 1)))
    + ∑ r : Fin 512, A (ix2 (tileRow n r) (halfCol n (i 0))) * (X (ix2 (tileRow n r) (i 1)) - X (ix2 (tileRow n r) (i 1)))

/-- The aggregate array as the first kernel leaves it: at target node n (in half n / 4096, at n % 4096 within it) the
    sixteen tile terms of that half added to zero. -/
def aggFold (X : SNodes.Idx → EReal) (A : SAdj.Idx → EReal) : SNodes.Idx → EReal := fun i =>
  0 + ∑ s ∈ Finset.range 16, tileTerm X A (16 * ((i 0).val / 4096) + s)
    (ix2 (⟨(i 0).val % 4096, Nat.mod_lt _ (by decide)⟩ : Fin 4096) (i 1))

/-- The partial degrees as the first kernel leaves them: for half p and node n, row n of A summed over half p's columns. -/
def degHalf (A : SAdj.Idx → EReal) : SHalves.Idx → EReal := fun i =>
  ∑ j : Fin 4096, A (ix2 (i 1) (⟨4096 * (i 0).val + j.val, by have := j.isLt; have : (i 0).val < 2 := (i 0).isLt; omega⟩ : Fin 8192))

/-- A per-channel vector as a row vector [1, 128]. -/
def asRow (v : SChan.Idx → EReal) : SRow.Idx → EReal := fun j => v (ix1 (j 1))

end Cert.GraphConv

end
-- ==== Proof.FoldLaws.lean ====
/-
  The first kernel's two arrays are the specification's aggregate and degree.

  Three facts carry everything.  A real entry minus itself is zero, and anything times zero is zero on the extended
  reals, so the second sum of each tile term vanishes.  The rows of the whole array are the disjoint union of the
  sixteen tiles of 512 rows, and the columns are the union of the two halves of 4096, so a sum taken tile by tile is
  the sum over all of them: this is one re-indexing of a finite sum along the bijection between pairs
  (tile, position in the tile) and positions in the whole, and it needs only the addition of a commutative monoid.
  Finally, for a target node n the grid point of tile s in n's half works exactly on rows 512 * s + r and reads column n.
-/
import proofs.«100040_j88742614270232_2_alg».proof.Proof.Fold
import Idealize.ShloMosaic.PureOps.Ideal.Laws
import Mathlib.Tactic

noncomputable section

open scoped BigOperators

namespace Cert.GraphConv

open Idealize.ShloMosaic Idealize.ShloMosaic.ValueIdx

/-! ## A sum over a tiled range -/

/-- A sum over `a * b` positions, taken tile by tile: `a` tiles of `b` positions each, position `r` of tile `s`
    being `r + b * s` (the value of `finProdFinEquiv (s, r)`).  Only the addition of a commutative monoid is used. -/
theorem sum_tiles {M : Type*} [AddCommMonoid M] (a b : ℕ) (g : Fin (a * b) → M) :
    ∑ m, g m = ∑ s : Fin a, ∑ r : Fin b, g (finProdFinEquiv (s, r)) := by
  rw [← finProdFinEquiv.sum_comp g, Fintype.sum_prod_type]

/-! ## The tile term -/

/-- every entry of the node features is a real number -/
def RealEntries (X : SNodes.Idx → EReal) : Prop := ∀ i, ∃ x : ℝ, X i = (x : EReal)

/-- A real entry minus itself is zero, so its product with anything is zero. -/
theorem mul_sub_self_of_real (X : SNodes.Idx → EReal) (hX : RealEntries X) (c : EReal) (i : SNodes.Idx) :
    c * (X i - X i) = 0 := by
  obtain ⟨x, hx⟩ := hX i
  rw [hx, ← EReal.coe_sub, sub_self, EReal.coe_zero, mul_zero]

/-- With real features the tile term is its first sum alone. -/
theorem tileTerm_eq (X : SNodes.Idx → EReal) (A : SAdj.Idx → EReal) (hX : RealEntries X) (n : ℕ)
    (i : (⟨2, ![4096, 128]⟩ : Shape).Idx) :
    tileTerm X A n i = ∑ r : Fin 512, A (ix2 (tileRow n r) (halfCol n (i 0))) * X (ix2 (tileRow n r) (i 1)) := by
  unfold tileTerm
  rw [Finset.sum_eq_zero (fun r _ => mul_sub_self_of_real X hX _ _), add_zero]

/-! ## The grid point of tile `s` in the half of target node `n` -/

/-- Its rows are positions `r + 512 * s` of the whole array. -/
theorem tileRow_eq (n : Fin 8192) (s : Fin 16) (r : Fin 512) :
    tileRow (16 * (n.val / 4096) + s.val) r = (finProdFinEquiv (s, r) : Fin (16 * 512)) := by
  apply Fin.ext
  have hs := s.isLt
  show 512 * ((16 * (n.val / 4096) + s.val) % 16) + r.val = r.val + 512 * s.val
  omega

/-- Its column at `n`'s place within the half is column `n`. -/
theorem halfCol_eq (n : Fin 8192) (s : Fin 16) :
    halfCol (16 * (n.val / 4096) + s.val) (⟨n.val % 4096, Nat.mod_lt _ (by decide)⟩ : Fin 4096) = n := by
  apply Fin.ext
  have hs := s.isLt
  have hn := n.isLt
  show 4096 * (((16 * (n.val / 4096) + s.val) / 16) % 2) + n.val % 4096 = n.val
  omega

/-! ## The aggregate -/

theorem aggFold_eq (X : SNodes.Idx → EReal) (A : SAdj.Idx → EReal) (hX : RealEntries X) (n : Fin 8192) (k : Fin 128) :
    aggFold X A (ix2 n k) = aggregate X A n k := by
  unfold aggFold aggregate
  rw [zero_add, Finset.sum_range]
  refine Eq.trans ?_ (sum_tiles 16 512 (fun m : Fin 8192 => A (ix2 m n) * X (ix2 m k))).symm
  refine Finset.sum_congr rfl fun s _ => ?_
  rw [tileTerm_eq X A hX]
  refine Finset.sum_congr rfl fun r _ => ?_
  show A (ix2 (tileRow (16 * (n.val / 4096) + s.val) r)
        (halfCol (16 * (n.val / 4096) + s.val) (⟨n.val % 4096, Nat.mod_lt _ (by decide)⟩ : Fin 4096)))
      * X (ix2 (tileRow (16 * (n.val / 4096) + s.val) r) k) = _
  rw [tileRow_eq, halfCol_eq]

/-! ## The degree -/

theorem degHalf_add (A : SAdj.Idx → EReal) (n : Fin 8192) :
    degHalf A (ix3 (0 : Fin 2) n (0 : Fin 1)) + degHalf A (ix3 (1 : Fin 2) n (0 : Fin 1)) = degree A n := by
  unfold degHalf degree
  refine Eq.trans ?_ (sum_tiles 2 4096 (fun j : Fin 8192 => A (ix2 n j))).symm
  rw [Fin.sum_univ_two]
  refine congrArg₂ (· + ·) (Finset.sum_congr rfl fun j _ => ?_) (Finset.sum_congr rfl fun j _ => ?_)
  · exact congrArg (fun c : Fin 8192 => A (ix2 n c)) (Fin.ext (by
      show 4096 * 0 + j.val = j.val + 4096 * 0
      omega))
  · exact congrArg (fun c : Fin 8192 => A (ix2 n c)) (Fin.ext (by
      show 4096 * 1 + j.val = j.val + 4096 * 1
      omega))

/-! ## The hidden layer from the first kernel's arrays -/

theorem hiddenOf_eq (X : SNodes.Idx → EReal) (A : SAdj.Idx → EReal) (Wn : SWeight.Idx → EReal) (bn : SChan.Idx → EReal)
    (Wc : SWeight.Idx → EReal) (bc : SChan.Idx → EReal) (hX : RealEntries X) :
    hiddenOf (aggFold X A) (degHalf A) X Wn (asRow bn) Wc (asRow bc) = hidden X A Wn bn Wc bc := by
  funext n o
  unfold hiddenOf hidden
  rw [degHalf_add]
  have h : ∀ k : Fin 128, aggFold X A (ix2 n k) = aggregate X A n k := fun k => aggFold_eq X A hX n k
  simp only [h]
  rfl

end Cert.GraphConv

end
-- ==== Proof.AggPieces.lean ====
/-
  What the first kernel's body leaves in its two output blocks, as values of the input blocks.

  The body reads a block of 512 rows of the node features and the block of the same rows and 4096 columns of the
  adjacency matrix.  It stores the rows' sums over those columns in the partial-degree block, and it adds to the
  aggregate block (4096 target nodes by 128 channels, zeroed at the first row tile) the product of the adjacency block's
  transpose with the feature block, taken twice: once with the features and once with their difference from themselves.
-/
import proofs.«100040_j88742614270232_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.GraphConv.Agg

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later row tile the aggregate block ends at the body's sum over what the tile before left `xo`: its one covering
    store's value, whose loads read the whole buffers. -/
theorem agg_B (c : Dev nD) (i : grid0.Coords) (a2 : Memref sig .tc .vmem S512x128 .f32) (h2 : a2.IsWhole)
    (a3 : Memref sig .tc .vmem S512x4096 .f32) (h3 : a3.IsWhole) (a4 : Memref sig .tc .vmem S4096x128 .f32) (h4 : a4.IsWhole)
    (a5 : Memref sig .tc .vmem S1x512x1 .f32) (h5 : a5.IsWhole) (hc : ¬cond0_0 i)
    (x0 : Vec F S512x128 .f32) (x1 : Vec F S512x4096 .f32) (xo : Vec F S4096x128 .f32) :
    out0_B_2 c i a2 h2 a3 h3 a4 h4 a5 h5 hc x0 x1 xo = k0_pay3 x1 x0 xo := by
  unfold out0_B_2
  rw [View.read_writes_eq_canon _ _ _ (cover0_B_2 c i a2 h2 a3 h3 a4 h4 a5 h5 hc x0 x1 xo)]
  unfold kernelRun0_B
  dsimp only
  rw [View.canon_unit_zero hz2]
  simp only [View.readAt_eq_ld, h2.read_unread, h3.read_unread, h4.read_unread, View.ld_unit_zero (S := S512x128) hz2,
    View.ld_unit_zero (S := S512x4096) hz2, View.ld_unit_zero (S := S4096x128) hz2]

/-- At the first row tile the block is first zeroed and read back: it ends at the body's sum over the zero block. -/
theorem agg_A (c : Dev nD) (i : grid0.Coords) (a2 : Memref sig .tc .vmem S512x128 .f32) (h2 : a2.IsWhole)
    (a3 : Memref sig .tc .vmem S512x4096 .f32) (h3 : a3.IsWhole) (a4 : Memref sig .tc .vmem S4096x128 .f32) (h4 : a4.IsWhole)
    (a5 : Memref sig .tc .vmem S1x512x1 .f32) (h5 : a5.IsWhole) (hc : cond0_0 i)
    (x0 : Vec F S512x128 .f32) (x1 : Vec F S512x4096 .f32) :
    out0_A_2 c i a2 h2 a3 h3 a4 h4 a5 h5 hc x0 x1 = k0_pay3 x1 x0 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S4096x128) hz2, View.readCov_unit_zero (S := S4096x128) _ hz2]
  simp only [View.readAt_eq_ld, h2.read_unread, h3.read_unread, View.ld_unit_zero (S := S512x128) hz2,
    View.ld_unit_zero (S := S512x4096) hz2, View.ld_unit_zero (S := S4096x128) hz2]

/-- The partial-degree block ends at the row sums of the adjacency block, at a later row tile -/
theorem deg_B (c : Dev nD) (i : grid0.Coords) (a2 : Memref sig .tc .vmem S512x128 .f32) (h2 : a2.IsWhole)
    (a3 : Memref sig .tc .vmem S512x4096 .f32) (h3 : a3.IsWhole) (a4 : Memref sig .tc .vmem S4096x128 .f32) (h4 : a4.IsWhole)
    (a5 : Memref sig .tc .vmem S1x512x1 .f32) (h5 : a5.IsWhole) (hc : ¬cond0_0 i)
    (x0 : Vec F S512x128 .f32) (x1 : Vec F S512x4096 .f32) (xo : Vec F S4096x128 .f32) :
    out0_B_3 c i a2 h2 a3 h3 a4 h4 a5 h5 hc x0 x1 xo = k0_pay2 x1 := by
  unfold out0_B_3
  rw [View.read_writes_eq_canon _ _ _ (cover0_B_3 c i a2 h2 a3 h3 a4 h4 a5 h5 hc x0 x1 xo)]
  unfold kernelRun0_B
  dsimp only
  rw [View.canon_unit_zero hz3]
  simp only [View.readAt_eq_ld, h3.read_unread, View.ld_unit_zero (S := S512x4096) hz2]

/-- and at the first. -/
theorem deg_A (c : Dev nD) (i : grid0.Coords) (a2 : Memref sig .tc .vmem S512x128 .f32) (h2 : a2.IsWhole)
    (a3 : Memref sig .tc .vmem S512x4096 .f32) (h3 : a3.IsWhole) (a4 : Memref sig .tc .vmem S4096x128 .f32) (h4 : a4.IsWhole)
    (a5 : Memref sig .tc .vmem S1x512x1 .f32) (h5 : a5.IsWhole) (hc : cond0_0 i)
    (x0 : Vec F S512x128 .f32) (x1 : Vec F S512x4096 .f32) :
    out0_A_3 c i a2 h2 a3 h3 a4 h4 a5 h5 hc x0 x1 = k0_pay2 x1 := by
  unfold out0_A_3
  rw [View.read_writes_eq_canon _ _ _ (cover0_A_3 c i a2 h2 a3 h3 a4 h4 a5 h5 hc x0 x1)]
  unfold kernelRun0_A
  dsimp only
  rw [View.canon_unit_zero hz3]
  simp only [View.readAt_eq_ld, h3.read_unread, View.ld_unit_zero (S := S512x4096) hz2]

end Cert.GraphConv.Agg

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.AggPayload.lean ====
/-
  The first kernel's stored values read at an index, on the extended reals.

  A change of float format is the identity here, so the products taken in the narrow format are the products of the
  values themselves; the matrix product into a zero accumulator, contracting the row axis of both blocks, is at (q, k)
  the sum over the 512 rows r of the adjacency block at (r, q) times the feature block at (r, k); the lane sum is the
  sum over a row's 4096 columns.
-/
import proofs.«100040_j88742614270232_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«100040_j88742614270232_2_alg».proof.Proof.LibKeepdims
set_option maxRecDepth 16384

noncomputable section

open Idealize.ShloMosaic Idealize.ShloMosaic.TcCoe Idealize.SL.Sem
open Idealize.ShloMosaic.Pipeline (Dat)

namespace Cert.GraphConv.Agg

open Cert.KernelIdeal Cert.KernelIdeal.Gen Idealize.ShloMosaic.ValueIdx

/-- The product's dimensions: the row axis of both blocks contracted, the result indexed by (adjacency column, feature column). -/
abbrev DT : DotDims S512x4096 S512x128 S4096x128 := dot_S512x4096_S512x128_S4096x128_0_0_1_1_n_n

/-- The zero block reads zero. -/
theorem zero_apply (j : S4096x128.Idx) : k0_pay1 (F := Ideal) j = 0 := by
  unfold k0_pay1
  exact Ideal.ofBits_zero_f32

/-- A reduced row index with column `k` put back is (r, k). -/
theorem lift_row (h : S512x4096.Reduces [1] S512) (r : Fin 512) (k : Fin (S512x4096.size 1)) :
    h.lift (ix1 r) k = ix2 r (⟨k.val, k.isLt⟩ : Fin 4096) := by
  funext c; apply Fin.ext
  fin_cases c <;> rfl

/-- The partial-degree block at row `r`: the sum of row `r` of the adjacency block over its 4096 columns. -/
theorem rowsum_apply (v3 : Vec Ideal S512x4096 .f32) (u : Fin 1) (r : Fin 512) (w : Fin 1) :
    k0_pay2 (F := Ideal) v3 (ix3 u r w) = ∑ j : Fin 4096, v3 (ix2 r j) := by
  unfold k0_pay2
  dsimp only
  rw [shapeCast_ab_1ab_apply, shapeCast_a_a1_apply]
  refine (Ideal.multiReduction_add_single v3 0x00000000#32 reduces_S512x4096_S512 (.inl rfl) rfl (ix1 r)).trans ?_
  exact Finset.sum_congr rfl fun k _ => congrArg v3 (lift_row reduces_S512x4096_S512 r k)

theorem lhs_free (i : S4096x128.Idx) (q : DT.contr.Idx) : (DT.lhsIdx i q 1).val = (i 0).val := by
  unfold DotDims.lhsIdx
  rw [dif_neg (show ¬(1 : Fin S512x4096.rank) ∈ DT.lhsBatch by decide), dif_pos (show (1 : Fin S512x4096.rank) ∈ DT.lhsNonContracting by decide)]
  rfl
theorem rhs_free (i : S4096x128.Idx) (q : DT.contr.Idx) : (DT.rhsIdx i q 1).val = (i 1).val := by
  unfold DotDims.rhsIdx
  rw [dif_neg (show ¬(1 : Fin S512x128.rank) ∈ DT.rhsBatch by decide), dif_pos (show (1 : Fin S512x128.rank) ∈ DT.rhsNonContracting by decide)]
  rfl

/-- The product of the adjacency block's transpose with a feature block, into a zero accumulator, at (q, k): the sum
    over the block's 512 rows of column `q` of the one against column `k` of the other. -/
theorem matmulT_apply {φ₁ φ₂ : FTy} (a : FVec Ideal S512x4096 φ₁) (x : FVec Ideal S512x128 φ₂) (q : Fin 4096) (k : Fin 128) :
    FloatOps.matmul DT none a x (constant S4096x128 .f32 0x00000000#32) (ix2 q k)
      = ∑ r : Fin 512, a (ix2 r q) * x (ix2 r k) := by
  rw [Ideal.matmul_constant_zero_apply, ← Equiv.sum_comp (ValueIdx.contrEquiv1 DT 512 rfl rfl).symm]
  refine Finset.sum_congr rfl fun r _ => ?_
  have hk := ValueIdx.contrEquiv1_symm_val DT 512 rfl rfl r
  have el : DT.lhsIdx (ix2 q k) ((ValueIdx.contrEquiv1 DT 512 rfl rfl).symm r) = ix2 r q := funext fun c => Fin.ext (by
    match c with
    | ⟨0, _⟩ => exact (DT.lhsIdx_val_of_single rfl _ _).trans hk
    | ⟨1, _⟩ => exact lhs_free _ _)
  have er : DT.rhsIdx (ix2 q k) ((ValueIdx.contrEquiv1 DT 512 rfl rfl).symm r) = ix2 r k := funext fun c => Fin.ext (by
    match c with
    | ⟨0, _⟩ => exact (DT.rhsIdx_val_of_single rfl _ _).trans hk
    | ⟨1, _⟩ => exact rhs_free _ _)
  rw [el, er]

/-- The aggregate block after the body, at (q, k): what it held, plus the block product with the features and the
    block product with the features' difference from themselves. -/
theorem step_apply (v3 : Vec Ideal S512x4096 .f32) (v4 : Vec Ideal S512x128 .f32) (v17 : Vec Ideal S4096x128 .f32)
    (q : Fin 4096) (k : Fin 128) :
    k0_pay3 (F := Ideal) v3 v4 v17 (ix2 q k)
      = v17 (ix2 q k) + ((∑ r : Fin 512, v3 (ix2 r q) * v4 (ix2 r k))
          + ∑ r : Fin 512, v3 (ix2 r q) * (v4 (ix2 r k) - v4 (ix2 r k))) := by
  unfold k0_pay3
  rw [addf_apply, addf_apply, shapeCast_self]
  refine congrArg (v17 (ix2 q k) + ·) ?_
  refine congrArg₂ (· + ·) ((matmulT_apply _ _ q k).trans ?_) ((matmulT_apply _ _ q k).trans ?_)
  · rfl
  · rfl

end Cert.GraphConv.Agg

end
-- ==== Proof.AggArrays.lean ====
/-
  The first kernel's two result arrays, as functions of the node features X and the adjacency matrix A as the region
  finds them.

  The aggregate block of a column half stays in its buffer across the half's sixteen row tiles and is written back after
  the last: by induction on the tile it then holds zero plus the sixteen tile terms, in order, which is the half's block
  of the array `aggFold X A`; the two halves' blocks tile the array.  The partial-degree block is written back at every
  point and holds the point's rows of A summed over the point's column half: the 32 blocks tile `degHalf A`.
-/
import proofs.«100040_j88742614270232_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«100040_j88742614270232_2_alg».proof.Proof.AggPieces
import proofs.«100040_j88742614270232_2_alg».proof.Proof.AggPayload
import proofs.«100040_j88742614270232_2_alg».proof.Proof.Fold
set_option maxRecDepth 16384

noncomputable section

open Idealize.ShloMosaic Idealize.ShloMosaic.TcCoe Idealize.SL.Sem
open Idealize.ShloMosaic.Pipeline (Dat)

namespace Cert.GraphConv.Agg

open Cert.KernelIdeal Cert.KernelIdeal.Gen Idealize.ShloMosaic.ValueIdx

open Cert.GraphConv

variable (V : (c : Dev nD) → (b : Ref sig .tc) → Buf (Elt Ideal) ((c : Thread nD τ).loc b))

/-- The printed index maps, decided once over the 32 grid points: point t works on row tile t % 16 and column half t / 16. -/
theorem idx_facts : ∀ t : Fin cfg0.N, win0_0.index t 0 = t.val % 16 ∧ win0_0.index t 1 = 0 ∧ win0_1.index t 0 = t.val % 16
    ∧ win0_1.index t 1 = t.val / 16 ∧ win0_2.index t 0 = t.val / 16 ∧ win0_2.index t 1 = 0
    ∧ win0_3.index t 0 = t.val / 16 ∧ win0_3.index t 1 = t.val % 16 ∧ win0_3.index t 2 = 0 :=
  (by decide +kernel : ∀ t : Fin grid0.N, win0_0.index t 0 = t.val % 16 ∧ win0_0.index t 1 = 0 ∧ win0_1.index t 0 = t.val % 16
    ∧ win0_1.index t 1 = t.val / 16 ∧ win0_2.index t 0 = t.val / 16 ∧ win0_2.index t 1 = 0
    ∧ win0_3.index t 0 = t.val / 16 ∧ win0_3.index t 1 = t.val % 16 ∧ win0_3.index t 2 = 0)

/-- The feature block at a point reads the point's row tile of the node features. -/
theorem blkX (c : Dev nD) (t : Fin cfg0.N) (r : Fin 512) (k : Fin 128) :
    iblk0 V c 0 t (ix2 r k) = V c main_arg0 (ix2 (tileRow t.val r) k) := by
  unfold iblk0
  rw [View.read_apply]
  show V c main_arg0 _ = V c main_arg0 _
  refine congrArg (V c main_arg0) (funext fun a => Fin.ext ?_)
  obtain ⟨h00, h01, -⟩ := idx_facts t
  match a with
  | ⟨0, _⟩ =>
    show win0_0.index t 0 * 512 + 1 * r.val = 512 * (t.val % 16) + r.val
    rw [h00]; omega
  | ⟨1, _⟩ =>
    show win0_0.index t 1 * 128 + 1 * k.val = k.val
    rw [h01]; omega

/-- The adjacency block at a point reads the point's row tile and column half of the adjacency matrix. -/
theorem blkA (c : Dev nD) (t : Fin cfg0.N) (r : Fin 512) (q : Fin 4096) :
    iblk0 V c 1 t (ix2 r q) = V c main_arg1 (ix2 (tileRow t.val r) (halfCol t.val q)) := by
  unfold iblk0
  rw [View.read_apply]
  show V c main_arg1 _ = V c main_arg1 _
  refine congrArg (V c main_arg1) (funext fun a => Fin.ext ?_)
  obtain ⟨-, -, h10, h11, -⟩ := idx_facts t
  have hN : t.val < 32 := lt_of_lt_of_eq t.isLt (show cfg0.N = 32 from N_0)
  match a with
  | ⟨0, _⟩ =>
    show win0_1.index t 0 * 512 + 1 * r.val = 512 * (t.val % 16) + r.val
    rw [h10]; omega
  | ⟨1, _⟩ =>
    show win0_1.index t 1 * 4096 + 1 * q.val = 4096 * ((t.val / 16) % 2) + q.val
    rw [h11]; omega

/-- One step of the aggregate block at grid point `t`: what it held plus the point's tile term. -/
theorem step_tile (c : Dev nD) (t : Fin cfg0.N) (acc : Vec Ideal S4096x128 .f32) (i : S4096x128.Idx) :
    k0_pay3 (F := Ideal) (iblk0 V c 1 t) (iblk0 V c 0 t) acc i
      = acc i + tileTerm (V c main_arg0) (V c main_arg1) t.val i := by
  obtain ⟨q, k, rfl⟩ : ∃ (q : Fin 4096) (k : Fin 128), i = ix2 q k := ⟨i 0, i 1, eq_ix2 i⟩
  refine (step_apply _ _ acc q k).trans ?_
  unfold tileTerm
  simp only [blkX, blkA]

/-- After row tile `j` of column half `p` the aggregate block holds zero plus the tile terms of tiles 0 … j of that half,
    in order: at the first tile the block is reset and the body adds to the zero block, at every later tile it adds to
    what the tile before left; by induction on the tile. -/
theorem outs_fold (c : Dev nD) (p : ℕ) (i : S4096x128.Idx) : ∀ (j : ℕ) (_ : j < 16) (h : 16 * p + j < cfg0.N),
    (outsAt0 V c (16 * p + j) h).1 i
      = 0 + ∑ s ∈ Finset.range (j + 1), tileTerm (V c main_arg0) (V c main_arg1) (16 * p + s) i
  | 0, _, h => by
    have hA : (⟨16 * p + 0, h⟩ : Fin cfg0.N).val % 16 = 0 := by dsimp only; omega
    show (outsAt0 V c (⟨16 * p + 0, h⟩ : Fin cfg0.N).val (⟨16 * p + 0, h⟩ : Fin cfg0.N).isLt).1 i = _
    rw [outsAt0_A V c ⟨16 * p + 0, h⟩ hA]
    dsimp only
    rw [agg_A, step_tile V c ⟨16 * p + 0, h⟩ _ i, zero_apply, Finset.sum_range_one]
  | j + 1, hj, h => by
    have hB : ¬(⟨16 * p + (j + 1), h⟩ : Fin cfg0.N).val % 16 = 0 := by dsimp only; omega
    show (outsAt0 V c (⟨16 * p + (j + 1), h⟩ : Fin cfg0.N).val (⟨16 * p + (j + 1), h⟩ : Fin cfg0.N).isLt).1 i = _
    rw [outsAt0_B V c ⟨16 * p + (j + 1), h⟩ hB]
    dsimp only
    rw [agg_B, step_tile V c ⟨16 * p + (j + 1), h⟩ _ i]
    show (outsAt0 V c (16 * p + j) _).1 i + _ = _
    rw [outs_fold c p i j (by omega) (Nat.lt_of_succ_lt h), Finset.sum_range_succ _ (j + 1), add_assoc]

/-- The aggregate array's entry for a target node of column half `p`: the sixteen tile terms of that half added to zero. -/
theorem aggFold_half (X : SNodes.Idx → EReal) (A : SAdj.Idx → EReal) (p : ℕ) (hp : p < 2) (q : Fin 4096) (k : Fin 128)
    (hn : 4096 * p + q.val < 8192) :
    aggFold X A (ix2 (⟨4096 * p + q.val, hn⟩ : Fin 8192) k) = 0 + ∑ s ∈ Finset.range 16, tileTerm X A (16 * p + s) (ix2 q k) := by
  have e1 : (4096 * p + q.val) / 4096 = p := by have := q.isLt; omega
  have e2 : (⟨(4096 * p + q.val) % 4096, Nat.mod_lt _ (by decide)⟩ : Fin 4096) = q :=
    Fin.ext (by show (4096 * p + q.val) % 4096 = q.val; have := q.isLt; omega)
  show 0 + ∑ s ∈ Finset.range 16, tileTerm X A (16 * ((4096 * p + q.val) / 4096) + s)
    (ix2 (⟨(4096 * p + q.val) % 4096, Nat.mod_lt _ (by decide)⟩ : Fin 4096) k) = _
  rw [e1, e2]

/-- WHAT A WRITE-BACK OF THE AGGREGATE WRITES. The block is written back after the last row tile of a column half; it
    then holds the half's sixteen tile terms added to zero, which is that half's block of the aggregate array. -/
theorem flushed_agg (c : Dev nD) (t : Fin cfg0.N) (hf : (cfg0.win 2).flush t = true) :
    (dat0 V c).flushed 2 t = ((cfg0.win 2).blk t).view.read (Elt Ideal) (aggFold (V c main_arg0) (V c main_arg1)) := by
  have hN : t.val < 32 := lt_of_lt_of_eq t.isLt (show cfg0.N = 32 from N_0)
  have h15 : t.val % 16 = 15 := (flush0_2 t).mp hf
  obtain ⟨-, -, -, -, h20, h21, -⟩ := idx_facts t
  show (cfg0.win 2).cut (grid0.coords t) ((dat0 V c).after 2 t) = _
  rw [after0_2]
  funext y
  rw [View.read_apply]
  revert y
  show ∀ y : S4096x128.Idx, (outsAt0 V c t.val t.isLt).1 ((cfg0.win 2).xinj (grid0.coords t) y)
    = aggFold (V c main_arg0) (V c main_arg1) (((cfg0.win 2).blk t).view.emb y)
  intro y
  obtain ⟨q, k, rfl⟩ : ∃ (q : Fin 4096) (k : Fin 128), y = ix2 q k := ⟨y 0, y 1, eq_ix2 y⟩
  have hx : (cfg0.win 2).xinj (grid0.coords t) (ix2 q k) = ix2 q k :=
    funext fun a => Fin.ext (by match a with | ⟨0, _⟩ => rfl | ⟨1, _⟩ => rfl)
  have hq : q.val < 4096 := q.isLt
  have hn : 4096 * (t.val / 16) + q.val < 8192 := by omega
  have he : ((cfg0.win 2).blk t).view.emb (ix2 q k) = ix2 (⟨4096 * (t.val / 16) + q.val, hn⟩ : Fin 8192) k :=
    funext fun a => Fin.ext (by
      match a with
      | ⟨0, _⟩ => show win0_2.index t 0 * 4096 + 1 * q.val = 4096 * (t.val / 16) + q.val; rw [h20]; omega
      | ⟨1, _⟩ => show win0_2.index t 1 * 128 + 1 * k.val = k.val; rw [h21]; omega)
  have h' : 16 * (t.val / 16) + 15 < cfg0.N := lt_of_lt_of_eq (by omega : 16 * (t.val / 16) + 15 < 32) (show cfg0.N = 32 from N_0).symm
  have same : ∀ (u : ℕ) (hu : u < cfg0.N), u = t.val → outsAt0 V c u hu = outsAt0 V c t.val t.isLt :=
    fun u hu e => by subst e; rfl
  rw [hx, he, aggFold_half _ _ (t.val / 16) (by omega) q k hn, ← same _ h' (by omega)]
  exact outs_fold V c (t.val / 16) (ix2 q k) 15 (by decide) h'

/-- An index of the aggregate array is in point `t`'s block iff each coordinate is in the block's range on its axis. -/
theorem mem_blk_agg (t : Fin cfg0.N) (i : S8192x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v4_0).slice (win0_2.rect t)).set ↔ _
  rw [View.set_slice_whole, Rect.mem_set_unit]
  exact Iff.rfl

/-- THE AGGREGATE ARRAY after the first region: target node n is covered by the write-back after the last row tile of
    its column half. -/
theorem final_agg (c : Dev nD) : (dat0 V c).arrAt 2 cfg0.N = aggFold (V c main_arg0) (V c main_arg1) :=
  (dat0 V c).arrAt_eq_of_cover 2 _ (flushed_agg V c) fun i => by
    have hi0 : (i 0).val < 8192 := (i 0).isLt
    have hi1 : (i 1).val < 128 := (i 1).isLt
    have ht : 16 * ((i 0).val / 4096) + 15 < cfg0.N := by rw [show cfg0.N = 32 from N_0]; omega
    refine ⟨⟨16 * ((i 0).val / 4096) + 15, ht⟩, (flush0_2 _).mpr (by dsimp only; omega), ?_⟩
    obtain ⟨-, -, -, -, h20, h21, -⟩ := idx_facts ⟨16 * ((i 0).val / 4096) + 15, ht⟩
    rw [mem_blk_agg]
    intro a
    match a with
    | ⟨0, _⟩ =>
      show win0_2.index ⟨16 * ((i 0).val / 4096) + 15, ht⟩ 0 * 4096 ≤ (i 0).val
        ∧ (i 0).val < win0_2.index ⟨16 * ((i 0).val / 4096) + 15, ht⟩ 0 * 4096 + 4096
      rw [h20]; dsimp only; omega
    | ⟨1, _⟩ =>
      show win0_2.index ⟨16 * ((i 0).val / 4096) + 15, ht⟩ 1 * 128 ≤ (i 1).val
        ∧ (i 1).val < win0_2.index ⟨16 * ((i 0).val / 4096) + 15, ht⟩ 1 * 128 + 128
      rw [h21]; omega

/-- The partial-degree block after any grid point: the row sums of the point's adjacency block. -/
theorem outs_deg (c : Dev nD) (t : Fin cfg0.N) : (outsAt0 V c t.val t.isLt).2 = k0_pay2 (F := Ideal) (iblk0 V c 1 t) := by
  by_cases h0 : t.val % 16 = 0
  · rw [outsAt0_A V c t h0]; dsimp only; rw [deg_A]
  · rw [outsAt0_B V c t h0]; dsimp only; rw [deg_B]

/-- WHAT A WRITE-BACK OF THE PARTIAL DEGREES WRITES: at every point, for the point's 512 rows, the sums of those rows of
    the adjacency matrix over the point's column half. -/
theorem flushed_deg (c : Dev nD) (t : Fin cfg0.N) (hf : (cfg0.win 3).flush t = true) :
    (dat0 V c).flushed 3 t = ((cfg0.win 3).blk t).view.read (Elt Ideal) (degHalf (V c main_arg1)) := by
  have hN : t.val < 32 := lt_of_lt_of_eq t.isLt (show cfg0.N = 32 from N_0)
  obtain ⟨-, -, -, -, -, -, h30, h31, h32⟩ := idx_facts t
  show (cfg0.win 3).cut (grid0.coords t) ((dat0 V c).after 3 t) = _
  rw [after0_3, outs_deg]
  funext y
  rw [View.read_apply]
  revert y
  show ∀ y : S1x512x1.Idx, k0_pay2 (F := Ideal) (iblk0 V c 1 t) ((cfg0.win 3).xinj (grid0.coords t) y)
    = degHalf (V c main_arg1) (((cfg0.win 3).blk t).view.emb y)
  intro y
  obtain ⟨u, r, w, rfl⟩ : ∃ (u : Fin 1) (r : Fin 512) (w : Fin 1), y = ix3 u r w := ⟨y 0, y 1, y 2, eq_ix3 y⟩
  have hx : (cfg0.win 3).xinj (grid0.coords t) (ix3 u r w) = ix3 u r w :=
    funext fun a => Fin.ext (by match a with | ⟨0, _⟩ => rfl | ⟨1, _⟩ => rfl | ⟨2, _⟩ => rfl)
  rw [hx, rowsum_apply]
  unfold degHalf
  refine Finset.sum_congr rfl fun j _ => ?_
  rw [blkA]
  refine congrArg (V c main_arg1) (funext fun a => Fin.ext ?_)
  have hu : u.val = 0 := by have := u.isLt; omega
  match a with
  | ⟨0, _⟩ => show 512 * (t.val % 16) + r.val = win0_3.index t 1 * 512 + 1 * r.val; rw [h31]; omega
  | ⟨1, _⟩ => show 4096 * ((t.val / 16) % 2) + j.val = 4096 * (win0_3.index t 0 * 1 + 1 * u.val) + j.val; rw [h30]; omega

/-- An index of the partial-degree array is in point `t`'s block iff each coordinate is in the block's range on its axis. -/
theorem mem_blk_deg (t : Fin cfg0.N) (i : S2x8192x1.Idx) :
    i ∈ ((cfg0.win 3).blk t).view.set ↔ ∀ a : Fin 3, win0_3.index t a * S1x512x1.size a ≤ (i a).val
      ∧ (i a).val < win0_3.index t a * S1x512x1.size a + S1x512x1.size a := by
  show i ∈ ((View.whole main_v4_1).slice (win0_3.rect t)).set ↔ _
  rw [View.set_slice_whole, Rect.mem_set_unit]
  exact Iff.rfl

/-- THE PARTIAL DEGREES after the first region: entry (p, n) is covered by the point of column half p and row tile n / 512. -/
theorem final_deg (c : Dev nD) : (dat0 V c).arrAt 3 cfg0.N = degHalf (V c main_arg1) :=
  (dat0 V c).arrAt_eq_of_cover 3 _ (flushed_deg V c) fun i => by
    have hi0 : (i 0).val < 2 := (i 0).isLt
    have hi1 : (i 1).val < 8192 := (i 1).isLt
    have hi2 : (i 2).val < 1 := (i 2).isLt
    have ht : 16 * (i 0).val + (i 1).val / 512 < cfg0.N := by rw [show cfg0.N = 32 from N_0]; omega
    refine ⟨⟨16 * (i 0).val + (i 1).val / 512, ht⟩, flush0_3 _, ?_⟩
    obtain ⟨-, -, -, -, -, -, h30, h31, h32⟩ := idx_facts ⟨16 * (i 0).val + (i 1).val / 512, ht⟩
    rw [mem_blk_deg]
    intro a
    match a with
    | ⟨0, _⟩ =>
      show win0_3.index ⟨16 * (i 0).val + (i 1).val / 512, ht⟩ 0 * 1 ≤ (i 0).val
        ∧ (i 0).val < win0_3.index ⟨16 * (i 0).val + (i 1).val / 512, ht⟩ 0 * 1 + 1
      rw [h30]; dsimp only; omega
    | ⟨1, _⟩ =>
      show win0_3.index ⟨16 * (i 0).val + (i 1).val / 512, ht⟩ 1 * 512 ≤ (i 1).val
        ∧ (i 1).val < win0_3.index ⟨16 * (i 0).val + (i 1).val / 512, ht⟩ 1 * 512 + 512
      rw [h31]; dsimp only; omega
    | ⟨2, _⟩ =>
      show win0_3.index ⟨16 * (i 0).val + (i 1).val / 512, ht⟩ 2 * 1 ≤ (i 2).val
        ∧ (i 2).val < win0_3.index ⟨16 * (i 0).val + (i 1).val / 512, ht⟩ 2 * 1 + 1
      rw [h32]; omega

end Cert.GraphConv.Agg
end
-- ==== Proof.EpilogueValue.lean ====
/-
  The second kernel's body at an index.

  The epilogue runs at one grid point with every window the whole array, so what it leaves in its output buffer is one
  pure function of the nine operand arrays: the aggregate array G [8192,128], the two partial degrees D [2,8192,1], the
  node features X [8192,128], the two weight matrices with their biases as rows [1,128], and the normalisation's scale
  and shift as rows [1,128].  Read at node n and channel o that function is

      max (g o * ((h n o - mean o) * rsqrt (var o + eps)) + b o) 0,

  where  h n o = sum_k (G n k / safe (D 0 n 0 + D 1 n 0)) * Wn o k + bn o + sum_k X n k * Wc o k + bc o  is the hidden
  layer, mean o and var o are the mean and the biased variance of column o of h over the 8192 nodes, and safe replaces a
  zero by one.  The steps: a whole-buffer load reads the array and the one whole-buffer store leaves its payload; the two
  row loads of D read its halves 0 and 1; each pointwise operation reads through to the elements; a broadcast of a row
  or of a column reads the row's or the column's entry; a product contracting the second axis of both operands is a sum
  over that axis; a reduction along the rows is a sum over the rows.  The hidden layer is read at an index once; the mean
  and the variance are then stated over it as one opaque array, so the sums over all rows never open it.
-/
import proofs.«100040_j88742614270232_2_alg».proof.Proof.Gen.KernelIdeal.Frame
import proofs.«100040_j88742614270232_2_alg».proof.Proof.Spec
import proofs.«100040_j88742614270232_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GraphConv.Epilogue

open Idealize.ShloMosaic Idealize.ShloMosaic.ValueIdx
open Cert.KernelIdeal Cert.KernelIdeal.Gen

theorem hz2 : (![0, 0] : Fin 2 → Nat) = fun _ => 0 := funext fun a => by fin_cases a <;> rfl

theorem ld_half0 (x1 : Vec Ideal S2x8192x1 .f32) (n : Fin 8192) :
    View.ld x1 r1_0 (ix3 (0 : Fin 1) n (0 : Fin 1)) = x1 (ix3 (0 : Fin 2) n (0 : Fin 1)) := by
  show x1 _ = x1 _
  refine congrArg x1 (funext fun a => Fin.ext ?_)
  match a with
  | ⟨0, _⟩ => rfl
  | ⟨1, _⟩ => show 0 + 1 * n.val = n.val; omega
  | ⟨2, _⟩ => rfl

theorem ld_half1 (x1 : Vec Ideal S2x8192x1 .f32) (n : Fin 8192) :
    View.ld x1 r1_1 (ix3 (0 : Fin 1) n (0 : Fin 1)) = x1 (ix3 (1 : Fin 2) n (0 : Fin 1)) := by
  show x1 _ = x1 _
  refine congrArg x1 (funext fun a => Fin.ext ?_)
  match a with
  | ⟨0, _⟩ => rfl
  | ⟨1, _⟩ => show 0 + 1 * n.val = n.val; omega
  | ⟨2, _⟩ => rfl

/-- The guarded degree of one node: the two partial degrees, each a [1,8192,1] block read as an [8192,1] column,
    added, and a sum equal to zero replaced by one. -/
theorem safe_apply (v0 v2 : Vec Ideal S1x8192x1 .f32) (n : Fin 8192) :
    select (cmpf .oeq (addf (shapeCast S8192x1 v0 shapeCasts_S1x8192x1_S8192x1) (shapeCast S8192x1 v2 shapeCasts_S1x8192x1_S8192x1))
        (broadcast S8192x1 (Scalar.ofBits (F := Ideal) .f32 0x00000000#32)))
      (broadcast S8192x1 (Scalar.ofBits (F := Ideal) .f32 0x3F800000#32))
      (addf (shapeCast S8192x1 v0 shapeCasts_S1x8192x1_S8192x1) (shapeCast S8192x1 v2 shapeCasts_S1x8192x1_S8192x1)) (ix2 n (0 : Fin 1))
      = safeDeg (v0 (ix3 (0 : Fin 1) n (0 : Fin 1)) + v2 (ix3 (0 : Fin 1) n (0 : Fin 1))) := by
  rw [select_apply, cmpf_apply, broadcast_apply, broadcast_apply, addf_apply, shapeCast_1ab_ab_apply, shapeCast_1ab_ab_apply]
  rfl

theorem lhs_row (i : S8192x128.Idx) (q : dot_S8192x128_S128x128_S8192x128_1_1_0_0_n_n.contr.Idx) :
    (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide), dif_pos (show (0 : Fin S8192x128.rank) ∈ dot_S8192x128_S128x128_S8192x128_1_1_0_0_n_n.lhsNonContracting by decide)]
  rfl

theorem rhs_row (i : S8192x128.Idx) (q : dot_S8192x128_S128x128_S8192x128_1_1_0_0_n_n.contr.Idx) :
    (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide), dif_pos (show (0 : Fin S128x128.rank) ∈ dot_S8192x128_S128x128_S8192x128_1_1_0_0_n_n.rhsNonContracting by decide)]
  rfl

/-- A matrix product into a zero accumulator, contracting the second axis of both operands: entry (n, o) is the
    sum over k of L n k * R o k. -/
theorem matmul_nt_apply (Lm : FVec Ideal S8192x128 .f32) (Rm : FVec Ideal S128x128 .f32) (n : Fin 8192) (o : Fin 128) :
    matmul dot_S8192x128_S128x128_S8192x128_1_1_0_0_n_n (some .fp32) Lm Rm (constant (F := Ideal) S8192x128 .f32 0x00000000#32) (ix2 n o)
      = ∑ k : Fin 128, Lm (ix2 n k) * Rm (ix2 o k) := by
  simp only [matmul]
  rw [Ideal.matmul_constant_zero_apply, ← Equiv.sum_comp (contrEquiv1 dot_S8192x128_S128x128_S8192x128_1_1_0_0_n_n 128 rfl rfl).symm]
  refine Finset.sum_congr rfl fun k _ => ?_
  have hk := contrEquiv1_symm_val dot_S8192x128_S128x128_S8192x128_1_1_0_0_n_n 128 rfl rfl k
  have el : dot_S8192x128_S128x128_S8192x128_1_1_0_0_n_n.lhsIdx (ix2 n o) ((contrEquiv1 dot_S8192x128_S128x128_S8192x128_1_1_0_0_n_n 128 rfl rfl).symm k) = ix2 n k := funext fun a => Fin.ext (by
    match a with
    | ⟨0, _⟩ => exact lhs_row _ _
    | ⟨1, _⟩ => exact (dot_S8192x128_S128x128_S8192x128_1_1_0_0_n_n.lhsIdx_val_of_single rfl _ _).trans hk)
  have er : dot_S8192x128_S128x128_S8192x128_1_1_0_0_n_n.rhsIdx (ix2 n o) ((contrEquiv1 dot_S8192x128_S128x128_S8192x128_1_1_0_0_n_n 128 rfl rfl).symm k) = ix2 o k := funext fun a => Fin.ext (by
    match a with
    | ⟨0, _⟩ => exact rhs_row _ _
    | ⟨1, _⟩ => exact (dot_S8192x128_S128x128_S8192x128_1_1_0_0_n_n.rhsIdx_val_of_single rfl _ _).trans hk)
  rw [el, er]

/-- The hidden layer at one node and channel: the aggregate row divided by the guarded degree against the first
    weight matrix, its bias, the node's own features against the second weight matrix, its bias, summed left to right. -/
theorem hidden_apply (v0 v2 : Vec Ideal S1x8192x1 .f32) (v9 : Vec Ideal S8192x128 .f32) (v13 : Vec Ideal S128x128 .f32)
    (v15 : Vec Ideal S8192x128 .f32) (v16 : Vec Ideal S128x128 .f32) (v18 v23 : Vec Ideal S1x128 .f32) (n : Fin 8192) (o : Fin 128) :
    k1_pay2 (F := Ideal) v0 v2 v9 v13 v15 v16 v18 v23 (ix2 n o)
      = (((∑ k : Fin 128, Ideal.div (v9 (ix2 n k)) (safeDeg (v0 (ix3 (0 : Fin 1) n (0 : Fin 1)) + v2 (ix3 (0 : Fin 1) n (0 : Fin 1)))) * v13 (ix2 o k))
            + v18 (ix2 (0 : Fin 1) o))
          + ∑ k : Fin 128, v15 (ix2 n k) * v16 (ix2 o k)) + v23 (ix2 (0 : Fin 1) o) := by
  unfold k1_pay2
  simp only [shapeCast_self]
  rw [addf_apply, addf_apply, addf_apply, matmul_nt_apply, matmul_nt_apply, broadcastTo_1b_ab_apply, broadcastTo_1b_ab_apply]
  refine congrArg₂ (· + ·) (congrArg₂ (· + ·) (congrArg₂ (· + ·) (Finset.sum_congr rfl fun k _ => ?_) rfl) rfl) rfl
  rw [divf_apply, broadcastTo_a1_ab_apply, safe_apply]

/-- A sum over the rows: the reduction of an [8192,128] array along its first axis, read at channel o. -/
theorem colsum_apply (src : FVec Ideal S8192x128 .f32) (hφ : FKind.Formats .f32) (hacc : (0x00000000#32 : BitVec 32) = 0x00000000#32) (o : Fin 128) :
    multiReduction (F := Ideal) .add [0] S128 src 0x00000000#32 reduces_S8192x128_S128 hφ hacc (ix1 o) = ∑ r : Fin 8192, src (ix2 r o) := by
  refine (Ideal.multiReduction_add_single src 0x00000000#32 reduces_S8192x128_S128 hφ hacc (ix1 o)).trans ?_
  refine Finset.sum_congr rfl fun r _ => congrArg src (funext fun a => Fin.ext ?_)
  match a with
  | ⟨0, _⟩ => rfl
  | ⟨1, _⟩ => rfl

/-- The column sum kept as a one-row array and divided by the number of rows. -/
theorem mean_apply (H : FVec Ideal S8192x128 .f32) (u : Fin 1) (o : Fin 128) :
    divf (shapeCast S1x128 (multiReduction (F := Ideal) .add [0] S128 H 0x00000000#32 reduces_S8192x128_S128 (.inl rfl) rfl) shapeCasts_S128_S1x128)
        (broadcast S1x128 (Scalar.ofBits (F := Ideal) .f32 0x46000000#32)) (ix2 u o)
      = Ideal.div (∑ r : Fin 8192, H (ix2 r o)) count := by
  rw [divf_apply, broadcast_apply, shapeCast_a_1a_apply]
  exact congrArg (Ideal.div · _) (colsum_apply H _ _ o)

/-- The inverse square root of a vector reads through to the element. -/
theorem rsqrt_apply {s : Shape} {φ : FTy} (a : FVec Ideal s φ) (i : s.Idx) : rsqrt a i = Ideal.rsqrt (a i) := rfl

/-- The column mean of the hidden layer, as the body computes it: the hidden layer stays one opaque array. -/
theorem mean_hidden_apply (v0 v2 : Vec Ideal S1x8192x1 .f32) (v9 : Vec Ideal S8192x128 .f32) (v13 : Vec Ideal S128x128 .f32)
    (v15 : Vec Ideal S8192x128 .f32) (v16 : Vec Ideal S128x128 .f32) (v18 v23 : Vec Ideal S1x128 .f32) (o : Fin 128) :
    k1_pay3 (F := Ideal) v0 v2 v9 v13 v15 v16 v18 v23 (ix2 (0 : Fin 1) o)
      = colMean (fun r o => k1_pay2 (F := Ideal) v0 v2 v9 v13 v15 v16 v18 v23 (ix2 r o)) o := by
  unfold k1_pay3
  generalize k1_pay2 (F := Ideal) v0 v2 v9 v13 v15 v16 v18 v23 = H
  exact mean_apply H 0 o

/-- The squared deviation from the column mean. -/
theorem dev_hidden_apply (v0 v2 : Vec Ideal S1x8192x1 .f32) (v9 : Vec Ideal S8192x128 .f32) (v13 : Vec Ideal S128x128 .f32)
    (v15 : Vec Ideal S8192x128 .f32) (v16 : Vec Ideal S128x128 .f32) (v18 v23 : Vec Ideal S1x128 .f32) (r : Fin 8192) (o : Fin 128) :
    k1_pay4 (F := Ideal) v0 v2 v9 v13 v15 v16 v18 v23 (ix2 r o)
      = (k1_pay2 (F := Ideal) v0 v2 v9 v13 v15 v16 v18 v23 (ix2 r o)
            - colMean (fun r o => k1_pay2 (F := Ideal) v0 v2 v9 v13 v15 v16 v18 v23 (ix2 r o)) o)
          * (k1_pay2 (F := Ideal) v0 v2 v9 v13 v15 v16 v18 v23 (ix2 r o)
            - colMean (fun r o => k1_pay2 (F := Ideal) v0 v2 v9 v13 v15 v16 v18 v23 (ix2 r o)) o) := by
  unfold k1_pay4
  rw [mulf_apply, subf_apply, broadcastTo_1b_ab_apply, mean_hidden_apply]

/-- The stored value from the hidden layer, a mean row and an array of squared deviations: normalise, scale, shift,
    rectify. -/
theorem norm_apply (v26 : FVec Ideal S8192x128 .f32) (v30 : FVec Ideal S1x128 .f32) (v33 : FVec Ideal S8192x128 .f32)
    (v45 v49 : Vec Ideal S1x128 .f32) (n : Fin 8192) (o : Fin 128) :
    k1_pay1 (F := Ideal) v26 v30 v33 v45 v49 (ix2 n o)
      = max (v45 (ix2 (0 : Fin 1) o) * ((v26 (ix2 n o) - v30 (ix2 (0 : Fin 1) o))
            * Ideal.rsqrt (Ideal.div (∑ r : Fin 8192, v33 (ix2 r o)) count + eps)) + v49 (ix2 (0 : Fin 1) o))
          (Ideal.ofBits .f32 0x00000000#32) := by
  unfold k1_pay1
  simp only [shapeCast_self]
  rw [maximumf_apply, broadcast_apply, addf_apply, mulf_apply, mulf_apply, subf_apply, broadcastTo_1b_ab_apply,
    broadcastTo_1b_ab_apply, broadcastTo_1b_ab_apply, broadcastTo_1b_ab_apply, rsqrt_apply, addf_apply, broadcast_apply, mean_apply]
  rfl

/-- The body's arithmetic on its loaded operands is the batch normalisation and rectifier of its own hidden layer:
    the mean and the variance are sums over all rows of that one array, which is never opened here. -/
theorem body_apply (v0 v2 : Vec Ideal S1x8192x1 .f32) (v9 : Vec Ideal S8192x128 .f32) (v13 : Vec Ideal S128x128 .f32)
    (v15 : Vec Ideal S8192x128 .f32) (v16 : Vec Ideal S128x128 .f32) (v18 v23 v45 v49 : Vec Ideal S1x128 .f32) (n : Fin 8192) (o : Fin 128) :
    k1_pay1 (F := Ideal) (k1_pay2 v0 v2 v9 v13 v15 v16 v18 v23) (k1_pay3 v0 v2 v9 v13 v15 v16 v18 v23)
        (k1_pay4 v0 v2 v9 v13 v15 v16 v18 v23) v45 v49 (ix2 n o)
      = batchNormRelu (fun r o => k1_pay2 (F := Ideal) v0 v2 v9 v13 v15 v16 v18 v23 (ix2 r o))
          (fun o => v45 (ix2 (0 : Fin 1) o)) (fun o => v49 (ix2 (0 : Fin 1) o)) n o := by
  rw [norm_apply, mean_hidden_apply]
  simp only [dev_hidden_apply]
  rfl

/-- The body's hidden layer on the loaded operands is the specification's: the two row loads of the partial degrees
    read halves 0 and 1 of node n. -/
theorem hidden_eq (x0 : Vec Ideal S8192x128 .f32) (x1 : Vec Ideal S2x8192x1 .f32) (x2 : Vec Ideal S8192x128 .f32)
    (x3 : Vec Ideal S128x128 .f32) (x4 : Vec Ideal S1x128 .f32) (x5 : Vec Ideal S128x128 .f32) (x6 : Vec Ideal S1x128 .f32) :
    (fun (r : Fin 8192) (o : Fin 128) => k1_pay2 (F := Ideal) (View.ld x1 r1_0) (View.ld x1 r1_1) x0 x3 x2 x5 x4 x6 (ix2 r o))
      = hiddenOf x0 x1 x2 x3 x4 x5 x6 := by
  funext r o
  rw [hidden_apply, ld_half0, ld_half1]
  rfl

/-- The second kernel's stored value at node n and channel o. -/
theorem out_apply (x0 : Vec Ideal Cert.KernelIdeal.S8192x128 .f32) (x1 : Vec Ideal Cert.KernelIdeal.S2x8192x1 .f32) (x2 : Vec Ideal Cert.KernelIdeal.S8192x128 .f32)
    (x3 : Vec Ideal Cert.KernelIdeal.S128x128 .f32) (x4 : Vec Ideal Cert.KernelIdeal.S1x128 .f32) (x5 : Vec Ideal Cert.KernelIdeal.S128x128 .f32)
    (x6 x7 x8 : Vec Ideal Cert.KernelIdeal.S1x128 .f32) (n : Fin 8192) (o : Fin 128) :
    Cert.KernelIdeal.Gen.out1_9 (F := Ideal) x0 x1 x2 x3 x4 x5 x6 x7 x8 (ix2 n o)
      = Cert.GraphConv.batchNormRelu (Cert.GraphConv.hiddenOf x0 x1 x2 x3 x4 x5 x6) (fun o => x7 (ix2 0 o)) (fun o => x8 (ix2 0 o)) n o := by
  unfold out1_9
  rw [View.canon_unit_zero hz2]
  simp only [View.ld_unit_zero (S := S8192x128) hz2, View.ld_unit_zero (S := S128x128) hz2, View.ld_unit_zero (S := S1x128) hz2]
  rw [body_apply, hidden_eq]

end Cert.GraphConv.Epilogue

end
-- ==== Proof.EpilogueArrays.lean ====
/-
  The second region's result array is its body's value of the whole arrays.

  The second kernel runs over a grid of ONE point, and at that point every window's block starts at offset zero and has
  its array's own extents.  So, whatever the buffers hold when the region is entered (the parameter V):
    * each of the nine input blocks, read off its array, is the whole array;
    * what the body leaves in the output's buffer is therefore its value of the nine whole arrays;
    * the one write-back copies that buffer to the output's block, which is the whole result array, and that block
      covers every index of the array.
  Hence the result array ends holding the body's value of the whole arrays.
-/
import proofs.«100040_j88742614270232_2_alg».proof.Proof.Gen.KernelIdeal.Frame
import Idealize.ShloMosaic.Lib.Pipeline.Value
import Idealize.ShloMosaic.PureOps.Ideal

noncomputable section

namespace Cert.GraphConv.Epilogue

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Input window 0 (the aggregate array): its block at the one grid point starts at offset zero and has the array's own
    extents, so reading it off the entry contents gives the whole array. -/
theorem iblk1_whole_0 (c : Dev nD) (t : Fin cfg1.N) : iblk1 V c 0 t = V c main_v4_0 := by
  obtain rfl : t = t1_0 := fin_N1 t
  have hz' : (fun a => win1_0.index t1_0 a * main_v4_0.ty.shape.size a) = fun _ => 0 := funext fun a => by fin_cases a <;> decide
  exact Memref.read_access_unit_zero (Elt Ideal) main_v4_0 hz' (fun a => by rw [congrFun hz' a]; simp) (V c main_v4_0)

/-- Input window 1 (the two partial degrees): its block at the one grid point starts at offset zero and has the array's own
    extents, so reading it off the entry contents gives the whole array. -/
theorem iblk1_whole_1 (c : Dev nD) (t : Fin cfg1.N) : iblk1 V c 1 t = V c main_v4_1 := by
  obtain rfl : t = t1_0 := fin_N1 t
  have hz' : (fun a => win1_1.index t1_0 a * main_v4_1.ty.shape.size a) = fun _ => 0 := funext fun a => by fin_cases a <;> decide
  exact Memref.read_access_unit_zero (Elt Ideal) main_v4_1 hz' (fun a => by rw [congrFun hz' a]; simp) (V c main_v4_1)

/-- Input window 2 (the node features): its block at the one grid point starts at offset zero and has the array's own
    extents, so reading it off the entry contents gives the whole array. -/
theorem iblk1_whole_2 (c : Dev nD) (t : Fin cfg1.N) : iblk1 V c 2 t = V c main_arg0 := by
  obtain rfl : t = t1_0 := fin_N1 t
  have hz' : (fun a => win1_2.index t1_0 a * main_arg0.ty.shape.size a) = fun _ => 0 := funext fun a => by fin_cases a <;> decide
  exact Memref.read_access_unit_zero (Elt Ideal) main_arg0 hz' (fun a => by rw [congrFun hz' a]; simp) (V c main_arg0)

/-- Input window 3 (the first weight matrix): its block at the one grid point starts at offset zero and has the array's own
    extents, so reading it off the entry contents gives the whole array. -/
theorem iblk1_whole_3 (c : Dev nD) (t : Fin cfg1.N) : iblk1 V c 3 t = V c main_arg2 := by
  obtain rfl : t = t1_0 := fin_N1 t
  have hz' : (fun a => win1_3.index t1_0 a * main_arg2.ty.shape.size a) = fun _ => 0 := funext fun a => by fin_cases a <;> decide
  exact Memref.read_access_unit_zero (Elt Ideal) main_arg2 hz' (fun a => by rw [congrFun hz' a]; simp) (V c main_arg2)

/-- Input window 4 (the first bias row): its block at the one grid point starts at offset zero and has the array's own
    extents, so reading it off the entry contents gives the whole array. -/
theorem iblk1_whole_4 (c : Dev nD) (t : Fin cfg1.N) : iblk1 V c 4 t = V c main_v0 := by
  obtain rfl : t = t1_0 := fin_N1 t
  have hz' : (fun a => win1_4.index t1_0 a * main_v0.ty.shape.size a) = fun _ => 0 := funext fun a => by fin_cases a <;> decide
  exact Memref.read_access_unit_zero (Elt Ideal) main_v0 hz' (fun a => by rw [congrFun hz' a]; simp) (V c main_v0)

/-- Input window 5 (the second weight matrix): its block at the one grid point starts at offset zero and has the array's own
    extents, so reading it off the entry contents gives the whole array. -/
theorem iblk1_whole_5 (c : Dev nD) (t : Fin cfg1.N) : iblk1 V c 5 t = V c main_arg4 := by
  obtain rfl : t = t1_0 := fin_N1 t
  have hz' : (fun a => win1_5.index t1_0 a * main_arg4.ty.shape.size a) = fun _ => 0 := funext fun a => by fin_cases a <;> decide
  exact Memref.read_access_unit_zero (Elt Ideal) main_arg4 hz' (fun a => by rw [congrFun hz' a]; simp) (V c main_arg4)

/-- Input window 6 (the second bias row): its block at the one grid point starts at offset zero and has the array's own
    extents, so reading it off the entry contents gives the whole array. -/
theorem iblk1_whole_6 (c : Dev nD) (t : Fin cfg1.N) : iblk1 V c 6 t = V c main_v1 := by
  obtain rfl : t = t1_0 := fin_N1 t
  have hz' : (fun a => win1_6.index t1_0 a * main_v1.ty.shape.size a) = fun _ => 0 := funext fun a => by fin_cases a <;> decide
  exact Memref.read_access_unit_zero (Elt Ideal) main_v1 hz' (fun a => by rw [congrFun hz' a]; simp) (V c main_v1)

/-- Input window 7 (the scale row): its block at the one grid point starts at offset zero and has the array's own
    extents, so reading it off the entry contents gives the whole array. -/
theorem iblk1_whole_7 (c : Dev nD) (t : Fin cfg1.N) : iblk1 V c 7 t = V c main_v2 := by
  obtain rfl : t = t1_0 := fin_N1 t
  have hz' : (fun a => win1_7.index t1_0 a * main_v2.ty.shape.size a) = fun _ => 0 := funext fun a => by fin_cases a <;> decide
  exact Memref.read_access_unit_zero (Elt Ideal) main_v2 hz' (fun a => by rw [congrFun hz' a]; simp) (V c main_v2)

/-- Input window 8 (the shift row): its block at the one grid point starts at offset zero and has the array's own
    extents, so reading it off the entry contents gives the whole array. -/
theorem iblk1_whole_8 (c : Dev nD) (t : Fin cfg1.N) : iblk1 V c 8 t = V c main_v3 := by
  obtain rfl : t = t1_0 := fin_N1 t
  have hz' : (fun a => win1_8.index t1_0 a * main_v3.ty.shape.size a) = fun _ => 0 := funext fun a => by fin_cases a <;> decide
  exact Memref.read_access_unit_zero (Elt Ideal) main_v3 hz' (fun a => by rw [congrFun hz' a]; simp) (V c main_v3)

/-- The body's value of the whole arrays: what the region's result array will be shown to hold. -/
abbrev bodyValue (c : Dev nD) : Buf (Elt Ideal) ((c : Thread nD τ).loc main_v5) :=
  out1_9 (F := Ideal) (V c main_v4_0) (V c main_v4_1) (V c main_arg0) (V c main_arg2) (V c main_v0) (V c main_arg4) (V c main_v1) (V c main_v2) (V c main_v3)

/-- The one write-back writes it: what the body leaves in the output's buffer is its value of the input blocks, each
    of which is its whole array, and the output's block is the whole result array read through zero offsets. -/
theorem flushed_eq (c : Dev nD) (t : Fin cfg1.N) (hf : (cfg1.win 9).flush t = true) :
    (dat1 V c).flushed 9 t = ((cfg1.win 9).blk t).view.read (Elt Ideal) (bodyValue V c) := by
  obtain rfl : t = t1_0 := fin_N1 t
  show (cfg1.win 9).cut (grid1.coords t1_0) ((dat1 V c).after 9 t1_0) = _
  rw [after1_9, iblk1_whole_0, iblk1_whole_1, iblk1_whole_2, iblk1_whole_3, iblk1_whole_4, iblk1_whole_5, iblk1_whole_6,
    iblk1_whole_7, iblk1_whole_8]
  have hz' : (fun a => win1_9.index t1_0 a * main_v5.ty.shape.size a) = fun _ => 0 := funext fun a => by fin_cases a <;> decide
  exact (Memref.read_access_unit_zero (Elt Ideal) main_v5 hz' (fun a => by rw [congrFun hz' a]; simp) (bodyValue V c)).symm

/-- So the second region's result array ends holding the body's value of the whole arrays: the one point's block
    covers every index of the array. -/
theorem final_out (c : Dev nD) :
    (dat1 V c).arrAt 9 cfg1.N
      = out1_9 (F := Ideal) (V c main_v4_0) (V c main_v4_1) (V c main_arg0) (V c main_arg2) (V c main_v0) (V c main_arg4) (V c main_v1) (V c main_v2) (V c main_v3) :=
  (dat1 V c).arrAt_eq_of_cover 9 (bodyValue V c) (flushed_eq V c) fun i =>
    ⟨t1_0, flush1_9 t1_0, by
      show i ∈ ((View.whole main_v5).slice (win1_9.rect t1_0)).set
      rw [View.set_slice_whole, Rect.mem_set_unit]
      intro a
      have h0 : (i 0 : Nat) < 8192 := (i 0).isLt
      have h1 : (i 1 : Nat) < 128 := (i 1).isLt
      match a with
      | ⟨0, _⟩ => show win1_9.index t1_0 0 * win1_9.size 0 ≤ (i 0 : Nat) ∧ (i 0 : Nat) < win1_9.index t1_0 0 * win1_9.size 0 + win1_9.xsize (grid1.coords t1_0) 0
                  rw [show win1_9.index t1_0 0 * win1_9.size 0 = 0 from by decide +kernel, show win1_9.xsize (grid1.coords t1_0) 0 = 8192 from by decide +kernel]; omega
      | ⟨1, _⟩ => show win1_9.index t1_0 1 * win1_9.size 1 ≤ (i 1 : Nat) ∧ (i 1 : Nat) < win1_9.index t1_0 1 * win1_9.size 1 + win1_9.xsize (grid1.coords t1_0) 1
                  rw [show win1_9.index t1_0 1 * win1_9.size 1 = 0 from by decide +kernel, show win1_9.xsize (grid1.coords t1_0) 1 = 128 from by decide +kernel]; omega⟩

end Cert.GraphConv.Epilogue

end
-- ==== Proof.HostStretch.lean ====
/-
  What the second kernel finds when it is entered.

  Before the first kernel the host performs four reshapes: the two bias vectors and the normalisation's scale and shift,
  each of 128 entries, are written as rows of shape [1, 128] into four fresh buffers.  Nothing else is written before
  the kernels.  So a buffer no reshape writes — the node features, the adjacency matrix and the two weight matrices —
  still holds its launch contents, and each of the four fresh buffers holds its vector as a row: entry (0, o) of the
  row is entry o of the vector.
-/
import proofs.«100040_j88742614270232_2_alg».proof.Proof.Gen.KernelIdeal.Frame
import proofs.«100040_j88742614270232_2_alg».proof.Proof.Fold
import Idealize.ShloMosaic.Lib.ValueLayout
import Idealize.ShloMosaic.Lib.StableHlo.Run
import Idealize.ShloMosaic.Lib.Tactic
import Idealize.ShloMosaic.Lib.Pipeline.Value

noncomputable section

namespace Cert.GraphConv.Host

open Cert.KernelIdeal Cert.KernelIdeal.Gen
open Idealize.ShloMosaic Idealize.ShloMosaic.TcCoe Idealize.ShloMosaic.Tactic Idealize.ShloMosaic.ValueIdx

variable (m : (ℓ : Loc nD τ sig) → Buf (Elt Ideal) ℓ) (ρ : Dev nD → PrngReg)

/-! ## Buffers no reshape writes hold their launch contents -/

theorem entry_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))).trans rfl

theorem entry_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))).trans rfl

theorem entry_arg2 (c : Dev nD) : V1 m ρ c main_arg2 = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))).trans rfl

theorem entry_arg4 (c : Dev nD) : V1 m ρ c main_arg4 = m ((c : Thread nD τ).loc main_arg4) :=
  (StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))).trans rfl

/-! ## A reshaped vector is the vector as a row -/

/-- A vector of 128 entries cast to shape [1, 128] is the vector as a row. -/
theorem shapeCast_asRow (v : S128.Idx → EReal) (h : S128.ShapeCasts S1x128) :
    (shapeCast S1x128 v h : S1x128.Idx → EReal) = Cert.GraphConv.asRow v := by
  funext j
  obtain ⟨u, o, rfl⟩ : ∃ (u : Fin 1) (o : Fin 128), j = ix2 u o := ⟨j 0, j 1, eq_ix2 j⟩
  exact shapeCast_a_1a_apply v h u o

theorem entry_v0 (c : Dev nD) :
    (V1 m ρ c main_v0 : S1x128.Idx → EReal) = Cert.GraphConv.asRow (m ((c : Thread nD τ).loc main_arg3)) := by
  have e : (V1 m ρ c main_v0 : S1x128.Idx → EReal)
      = shapeCast S1x128 (m ((c : Thread nD τ).loc main_arg3)) shapeCasts_S128_S1x128 := by
    dsimp only [V1, W1, hostOps0]; after_results; rfl
  rw [e]
  exact shapeCast_asRow _ _

theorem entry_v1 (c : Dev nD) :
    (V1 m ρ c main_v1 : S1x128.Idx → EReal) = Cert.GraphConv.asRow (m ((c : Thread nD τ).loc main_arg5)) := by
  have e : (V1 m ρ c main_v1 : S1x128.Idx → EReal)
      = shapeCast S1x128 (m ((c : Thread nD τ).loc main_arg5)) shapeCasts_S128_S1x128 := by
    dsimp only [V1, W1, hostOps0]; after_results; rfl
  rw [e]
  exact shapeCast_asRow _ _

theorem entry_v2 (c : Dev nD) :
    (V1 m ρ c main_v2 : S1x128.Idx → EReal) = Cert.GraphConv.asRow (m ((c : Thread nD τ).loc main_arg6)) := by
  have e : (V1 m ρ c main_v2 : S1x128.Idx → EReal)
      = shapeCast S1x128 (m ((c : Thread nD τ).loc main_arg6)) shapeCasts_S128_S1x128 := by
    dsimp only [V1, W1, hostOps0]; after_results; rfl
  rw [e]
  exact shapeCast_asRow _ _

theorem entry_v3 (c : Dev nD) :
    (V1 m ρ c main_v3 : S1x128.Idx → EReal) = Cert.GraphConv.asRow (m ((c : Thread nD τ).loc main_arg7)) := by
  have e : (V1 m ρ c main_v3 : S1x128.Idx → EReal)
      = shapeCast S1x128 (m ((c : Thread nD τ).loc main_arg7)) shapeCasts_S128_S1x128 := by
    dsimp only [V1, W1, hostOps0]; after_results; rfl
  rw [e]
  exact shapeCast_asRow _ _

end Cert.GraphConv.Host

end
-- ==== Proof.KernelRun.lean ====
/-
  The idealized kernel's whole run with its result array named.

  The program is a stretch of host reshapes followed by two kernel regions.  Every weakly fair execution terminates, and
  in the final memory the result buffer holds what the second region's write-backs leave there (the contents `W3` at the
  last boundary: the fold, through the program, of each host stretch and each region's write-backs from the launch
  memory), while the eight argument arrays are as launched.  This is the run behind the generated frame claim, read at
  one more buffer: the same launch over the same segments, with the last thread state also read at the result.
-/
import proofs.«100040_j88742614270232_2_alg».proof.Proof.Gen.KernelIdeal.Frame

set_option maxRecDepth 16384

noncomputable section

namespace Cert.GraphConv.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last boundary's
    contents and the arguments end unchanged. -/
theorem run_result : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.GraphConv.Run

end
-- ==== Proof.ResultValue.lean ====
/-
  The idealized kernel's result array is the specification's function of the argument arrays.

  Through the program: the host reshapes leave the four per-channel vectors as row vectors; the first region leaves the
  aggregate array and the two partial degrees (everything else as it was); the second region's one block is the whole
  result array, its body's value of the arrays it finds.  At an index that value is the batch-normalised, rectified
  heads over the aggregate array and the summed partial degrees, and — the node features being real numbers — those
  heads are the specification's: the sixteen tile sums of a column half add up to the whole column sum, the terms against
  X - X vanish, and the two partial degrees add up to the row sum.
-/
import proofs.«100040_j88742614270232_2_alg».proof.Proof.Gen.KernelIdeal.Frame
import proofs.«100040_j88742614270232_2_alg».proof.Proof.Spec
import proofs.«100040_j88742614270232_2_alg».proof.Proof.Fold
import proofs.«100040_j88742614270232_2_alg».proof.Proof.FoldLaws
import proofs.«100040_j88742614270232_2_alg».proof.Proof.AggArrays
import proofs.«100040_j88742614270232_2_alg».proof.Proof.EpilogueValue
import proofs.«100040_j88742614270232_2_alg».proof.Proof.EpilogueArrays
import proofs.«100040_j88742614270232_2_alg».proof.Proof.HostStretch
import proofs.«100040_j88742614270232_2_alg».proof.Proof.KernelRun

set_option maxRecDepth 16384

noncomputable section

open Idealize.ShloMosaic Idealize.ShloMosaic.TcCoe Idealize.SL.Sem

namespace Cert.GraphConv.Result

open Cert.KernelIdeal Cert.KernelIdeal.Gen Idealize.ShloMosaic.ValueIdx Cert.GraphConv

variable (m : (ℓ : Loc nD τ sig) → Buf (Elt Ideal) ℓ) (ρ : Dev nD → PrngReg)

/-! ## What the second region finds: the first region's exit contents -/

theorem exit_agg (c : Dev nD) :
    V2 m ρ c main_v4_0 = aggFold (m ((c : Thread nD τ).loc main_arg0)) (m ((c : Thread nD τ).loc main_arg1)) :=
  (W2_arr m ρ c 2).trans ((Agg.final_agg (V1 m ρ) c).trans (by rw [Host.entry_arg0, Host.entry_arg1]))

theorem exit_deg (c : Dev nD) : V2 m ρ c main_v4_1 = degHalf (m ((c : Thread nD τ).loc main_arg1)) :=
  (W2_arr m ρ c 3).trans ((Agg.final_deg (V1 m ρ) c).trans (by rw [Host.entry_arg1]))

theorem exit_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (Host.entry_arg0 m ρ c)

theorem exit_arg2 (c : Dev nD) : V2 m ρ c main_arg2 = m ((c : Thread nD τ).loc main_arg2) :=
  (W2_of_ne m ρ c main_arg2 (by decide)).trans (Host.entry_arg2 m ρ c)

theorem exit_arg4 (c : Dev nD) : V2 m ρ c main_arg4 = m ((c : Thread nD τ).loc main_arg4) :=
  (W2_of_ne m ρ c main_arg4 (by decide)).trans (Host.entry_arg4 m ρ c)

theorem exit_v0 (c : Dev nD) : (V2 m ρ c main_v0 : S1x128.Idx → EReal) = asRow (m ((c : Thread nD τ).loc main_arg3)) :=
  (W2_of_ne m ρ c main_v0 (by decide)).trans (Host.entry_v0 m ρ c)
theorem exit_v1 (c : Dev nD) : (V2 m ρ c main_v1 : S1x128.Idx → EReal) = asRow (m ((c : Thread nD τ).loc main_arg5)) :=
  (W2_of_ne m ρ c main_v1 (by decide)).trans (Host.entry_v1 m ρ c)
theorem exit_v2 (c : Dev nD) : (V2 m ρ c main_v2 : S1x128.Idx → EReal) = asRow (m ((c : Thread nD τ).loc main_arg6)) :=
  (W2_of_ne m ρ c main_v2 (by decide)).trans (Host.entry_v2 m ρ c)
theorem exit_v3 (c : Dev nD) : (V2 m ρ c main_v3 : S1x128.Idx → EReal) = asRow (m ((c : Thread nD τ).loc main_arg7)) :=
  (W2_of_ne m ρ c main_v3 (by decide)).trans (Host.entry_v3 m ρ c)

/-! ## The result buffer at the last boundary -/

/-- The result buffer's final contents are the specification's function of the launch contents of the eight arguments,
    when every entry of the node features is a real number. -/
theorem result_eq (c : Dev nD) (hX : RealEntries (m ((c : Thread nD τ).loc main_arg0))) :
    W3 m ρ c (Proc.devRef .tc main_v5)
      = output (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W3_arr m ρ c 9).trans ((Epilogue.final_out (V2 m ρ) c).trans ?_)
  rw [exit_agg, exit_deg, exit_arg0, exit_arg2, exit_arg4, exit_v0, exit_v1, exit_v2, exit_v3]
  funext i
  obtain ⟨n, o, rfl⟩ : ∃ (n : Fin 8192) (o : Fin 128), i = ix2 n o := ⟨i 0, i 1, eq_ix2 i⟩
  rw [Epilogue.out_apply, hiddenOf_eq _ _ _ _ _ _ hX, output_ix2]
  rfl

/-- The run with the result named by the specification. -/
theorem run (hX : ∀ c : Dev nD, RealEntries (m ((c : Thread nD τ).loc main_arg0))) :
    θ_run defs (onTc (τ := τ) (main (F := Ideal))) ⟨m, fun _ => 0, ρ⟩ (fun r => ∀ c : Dev nD,
      r.2.mem ((c.tc : Thread nD τ).loc main_v5)
        = output (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c (hX c)), (h c).2⟩) (Run.run_result (F := Ideal) m ρ)

end Cert.GraphConv.Result

end
-- ==== Proof.RefValue.lean ====
/-
  The reference program computes the specification.

  The reference's run is read one operation at a time: each operation's value at an index is given by the values of
  its operands at indices computed from that index.  Reading from the result backwards, every index function met on
  the way is one of the coordinate constructors, every initial value of a sum is the zero word, and every elementwise
  operation is the extended-real operation of the same name.  The column statistics sit under sums over all the
  rows, so the hidden layer is identified once, as a function of a row and a channel, and the mean and the variance
  are then identified as functions of a channel alone; the result is read last, from those three.
-/
import proofs.«100040_j88742614270232_2_alg».proof.Proof.Gen.ReferenceIdeal.Read
import proofs.«100040_j88742614270232_2_alg».proof.Proof.Spec
import Idealize.ShloMosaic.Lib.ValueIdx
import Idealize.ShloMosaic.PureOps.Ideal.Laws

noncomputable section

open scoped BigOperators

namespace Cert.GraphConv.Ref

open Cert.ReferenceIdeal Cert.ReferenceIdeal.Read Idealize.ShloMosaic Idealize.ShloMosaic.ValueIdx

variable (x0 : (⟨S8192x128, .f32⟩ : BufTy).Contents (Elt Ideal)) (x1 : (⟨S8192x8192, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 : (⟨S128, .f32⟩ : BufTy).Contents (Elt Ideal))

/-! ## The degree, its guarded form, and the aggregate -/

/-- Summing row `n` of the adjacency matrix: the sum's index at position `k` is the pair `(n, k)`. -/
theorem idx_degree (n k : Fin 8192) : idx_main_v0 (ix1 n) k = ix2 n k :=
  funext fun a => Fin.ext (by match a with | ⟨0, _⟩ => rfl | ⟨1, _⟩ => rfl)

/-- The row sum of the adjacency matrix, started from the zero word, is the degree. -/
theorem degree_eq (n : Fin 8192) : val_main_v0 (F := Ideal) x1 (ix1 n) = degree x1 n := by
  rw [val_main_v0_apply, val_main_cst_apply, Ideal.ofBits_def, Ideal.ofBits_zero_f32, zero_add]
  unfold degree
  exact Finset.sum_congr rfl fun k _ => by rw [idx_degree]

/-- The degree kept as a column: entry `(n, 0)` of the column reads the degree of `n`. -/
theorem idx_column (n : Fin 8192) : idx_main_v1 (ix2 n (0 : Fin 1)) = ix1 n :=
  funext fun a => Fin.ext (by match a with | ⟨0, _⟩ => rfl)

/-- Comparing the degree with the zero word and choosing the word of one where they are equal is the guarded degree. -/
theorem safe_eq (n : Fin 8192) : val_main_v5 (F := Ideal) x1 (ix2 n (0 : Fin 1)) = safeDeg (degree x1 n) := by
  rw [val_main_v5_apply, val_main_v3_apply, val_main_v1_apply, val_main_v2_apply, val_main_v4_apply,
    val_main_cst_0_apply, val_main_cst_1_apply, idx_column, degree_eq]
  rfl

/-- The transposed adjacency matrix read at `(n, m)` is the adjacency matrix at `(m, n)`. -/
theorem idx_adjT (n : Fin 8192) (k : Fin 128) (m : Fin 8192) :
    idx_main_v6 (lidx_main_v7 (ix2 n k) m) = ix2 m n :=
  funext fun a => Fin.ext (by match a with | ⟨0, _⟩ => rfl | ⟨1, _⟩ => rfl)

/-- The features read at row `m`, channel `k`. -/
theorem idx_feat (n : Fin 8192) (k : Fin 128) (m : Fin 8192) : ridx_main_v7 (ix2 n k) m = ix2 m k :=
  funext fun a => Fin.ext (by match a with | ⟨0, _⟩ => rfl | ⟨1, _⟩ => rfl)

/-- The product of the transposed adjacency matrix with the features is the aggregate. -/
theorem aggregate_eq (n : Fin 8192) (k : Fin 128) :
    val_main_v7 (F := Ideal) x0 x1 (ix2 n k) = aggregate x0 x1 n k := by
  rw [val_main_v7_apply]
  unfold aggregate
  exact Finset.sum_congr rfl fun m _ => by rw [val_main_v6_apply, idx_adjT, idx_feat]

/-! ## The hidden layer -/

/-- The guarded degree spread over the channels: entry `(n, k)` reads the column's entry `(n, 0)`. -/
theorem idx_spread (n : Fin 8192) (k : Fin 128) : idx_main_v8 (ix2 n k) = ix2 n (0 : Fin 1) :=
  funext fun a => Fin.ext (by match a with | ⟨0, _⟩ => rfl | ⟨1, _⟩ => rfl)

/-- The aggregate divided by the guarded degree. -/
theorem scaled_eq (n : Fin 8192) (k : Fin 128) :
    val_main_v9 (F := Ideal) x0 x1 (ix2 n k) = Ideal.div (aggregate x0 x1 n k) (safeDeg (degree x1 n)) := by
  rw [val_main_v9_apply, val_main_v8_apply, idx_spread, safe_eq, aggregate_eq, Ideal.hostDivf_def]

/-- The left factor of a product with a transposed weight matrix: row `n`, channel `k`. -/
theorem idx_rowN (n : Fin 8192) (o k : Fin 128) : lidx_main_v11 (ix2 n o) k = ix2 n k :=
  funext fun a => Fin.ext (by match a with | ⟨0, _⟩ => rfl | ⟨1, _⟩ => rfl)

/-- The transposed neighbour weights read at `(k, o)` are the weights at `(o, k)`. -/
theorem idx_weightN (n : Fin 8192) (o k : Fin 128) : idx_main_v10 (ridx_main_v11 (ix2 n o) k) = ix2 o k :=
  funext fun a => Fin.ext (by match a with | ⟨0, _⟩ => rfl | ⟨1, _⟩ => rfl)

/-- The same for the product of the features with the transposed centre weights. -/
theorem idx_rowC (n : Fin 8192) (o k : Fin 128) : lidx_main_v16 (ix2 n o) k = ix2 n k :=
  funext fun a => Fin.ext (by match a with | ⟨0, _⟩ => rfl | ⟨1, _⟩ => rfl)

theorem idx_weightC (n : Fin 8192) (o k : Fin 128) : idx_main_v15 (ridx_main_v16 (ix2 n o) k) = ix2 o k :=
  funext fun a => Fin.ext (by match a with | ⟨0, _⟩ => rfl | ⟨1, _⟩ => rfl)

/-- A per-channel vector spread first to a row and then over the nodes is read at the channel. -/
theorem idx_biasN (n : Fin 8192) (o : Fin 128) : idx_main_v12 (idx_main_v13 (ix2 n o)) = ix1 o :=
  funext fun a => Fin.ext (by match a with | ⟨0, _⟩ => rfl)

theorem idx_biasC (n : Fin 8192) (o : Fin 128) : idx_main_v18 (idx_main_v19 (ix2 n o)) = ix1 o :=
  funext fun a => Fin.ext (by match a with | ⟨0, _⟩ => rfl)

/-- The neighbour head: the scaled aggregate against the neighbour weights. -/
theorem headN_eq (n : Fin 8192) (o : Fin 128) :
    val_main_v11 (F := Ideal) x0 x1 x2 (ix2 n o)
      = ∑ k : Fin 128, Ideal.div (aggregate x0 x1 n k) (safeDeg (degree x1 n)) * x2 (ix2 o k) := by
  rw [val_main_v11_apply]
  exact Finset.sum_congr rfl fun k _ => by rw [val_main_v10_apply, idx_rowN, idx_weightN, scaled_eq]

/-- The centre head: the features against the centre weights. -/
theorem headC_eq (n : Fin 8192) (o : Fin 128) :
    val_main_v16 (F := Ideal) x0 x4 (ix2 n o) = ∑ k : Fin 128, x0 (ix2 n k) * x4 (ix2 o k) := by
  rw [val_main_v16_apply]
  exact Finset.sum_congr rfl fun k _ => by rw [val_main_v15_apply, idx_rowC, idx_weightC]

/-- The two heads and their biases, added in the program's order, are the hidden layer. -/
theorem hidden_eq (n : Fin 8192) (o : Fin 128) :
    val_main_v20 (F := Ideal) x0 x1 x2 x3 x4 x5 (ix2 n o) = hidden x0 x1 x2 x3 x4 x5 n o := by
  rw [val_main_v20_apply, val_main_v17_apply, val_main_v14_apply, val_main_v19_apply, val_main_v18_apply,
    val_main_v13_apply, val_main_v12_apply, idx_biasN, idx_biasC, headN_eq, headC_eq]
  rfl

/-! ## The column mean and the column variance of the hidden layer -/

/-- Summing column `o` over the rows: position `r` is the pair `(r, o)`. -/
theorem idx_colsum (o : Fin 128) (r : Fin 8192) : idx_main_v21 (ix1 o) r = ix2 r o :=
  funext fun a => Fin.ext (by match a with | ⟨0, _⟩ => rfl | ⟨1, _⟩ => rfl)

/-- The column sum of the hidden layer, started from the zero word and divided by the word of the row count, is the
    column mean. -/
theorem mean_eq (o : Fin 128) :
    val_main_v23 (F := Ideal) x0 x1 x2 x3 x4 x5 (ix1 o) = colMean (hidden x0 x1 x2 x3 x4 x5) o := by
  rw [val_main_v23_apply, val_main_v21_apply, val_main_v22_apply, val_main_cst_2_apply, val_main_cst_3_apply]
  simp only [Ideal.ofBits_def, Ideal.ofBits_zero_f32, zero_add, Ideal.hostDivf_def]
  unfold colMean count
  exact congrArg (Ideal.div · _) (Finset.sum_congr rfl fun r _ => by rw [idx_colsum, hidden_eq])

/-- The mean spread first to a row and then over the nodes is read at the channel. -/
theorem idx_meanrow (n : Fin 8192) (o : Fin 128) : idx_main_v24 (idx_main_v25 (ix2 n o)) = ix1 o :=
  funext fun a => Fin.ext (by match a with | ⟨0, _⟩ => rfl)

/-- The hidden layer minus its column mean. -/
theorem centred_eq (n : Fin 8192) (o : Fin 128) :
    val_main_v26 (F := Ideal) x0 x1 x2 x3 x4 x5 (ix2 n o)
      = hidden x0 x1 x2 x3 x4 x5 n o - colMean (hidden x0 x1 x2 x3 x4 x5) o := by
  rw [val_main_v26_apply, val_main_v25_apply, val_main_v24_apply, idx_meanrow, mean_eq, hidden_eq, Ideal.subf_def]

theorem idx_colsumSq (o : Fin 128) (r : Fin 8192) : idx_main_v28 (ix1 o) r = ix2 r o :=
  funext fun a => Fin.ext (by match a with | ⟨0, _⟩ => rfl | ⟨1, _⟩ => rfl)

/-- The column sum of the squared deviations, divided by the word of the row count, is the biased column variance. -/
theorem var_eq (o : Fin 128) :
    val_main_v30 (F := Ideal) x0 x1 x2 x3 x4 x5 (ix1 o) = colVar (hidden x0 x1 x2 x3 x4 x5) o := by
  rw [val_main_v30_apply, val_main_v28_apply, val_main_v29_apply, val_main_cst_4_apply, val_main_cst_5_apply]
  simp only [Ideal.ofBits_def, Ideal.ofBits_zero_f32, zero_add, Ideal.hostDivf_def]
  unfold colVar count
  exact congrArg (Ideal.div · _) (Finset.sum_congr rfl fun r _ => by
    rw [val_main_v27_apply, idx_colsumSq, centred_eq, Ideal.mulf_def])

/-! ## The result -/

theorem idx_meanrow2 (n : Fin 8192) (o : Fin 128) : idx_main_v31 (idx_main_v32 (ix2 n o)) = ix1 o :=
  funext fun a => Fin.ext (by match a with | ⟨0, _⟩ => rfl)

theorem idx_scalerow (n : Fin 8192) (o : Fin 128) : idx_main_v37 (idx_main_v38 (ix2 n o)) = ix1 o :=
  funext fun a => Fin.ext (by match a with | ⟨0, _⟩ => rfl)

theorem idx_gamma (n : Fin 8192) (o : Fin 128) : idx_main_v40 (idx_main_v41 (ix2 n o)) = ix1 o :=
  funext fun a => Fin.ext (by match a with | ⟨0, _⟩ => rfl)

theorem idx_beta (n : Fin 8192) (o : Fin 128) : idx_main_v43 (idx_main_v44 (ix2 n o)) = ix1 o :=
  funext fun a => Fin.ext (by match a with | ⟨0, _⟩ => rfl)

/-- The reciprocal square root of the variance plus the epsilon word, per channel. -/
theorem scale_eq (o : Fin 128) :
    val_main_v36 (F := Ideal) x0 x1 x2 x3 x4 x5 (ix1 o) = Ideal.rsqrt (colVar (hidden x0 x1 x2 x3 x4 x5) o + eps) := by
  rw [val_main_v36_apply, val_main_v35_apply, val_main_v34_apply, val_main_cst_6_apply, var_eq]
  rfl

/-- The centred hidden layer times the per-channel scale. -/
theorem normalised_eq (n : Fin 8192) (o : Fin 128) :
    val_main_v39 (F := Ideal) x0 x1 x2 x3 x4 x5 (ix2 n o)
      = (hidden x0 x1 x2 x3 x4 x5 n o - colMean (hidden x0 x1 x2 x3 x4 x5) o)
          * Ideal.rsqrt (colVar (hidden x0 x1 x2 x3 x4 x5) o + eps) := by
  rw [val_main_v39_apply, val_main_v33_apply, val_main_v32_apply, val_main_v31_apply, val_main_v38_apply,
    val_main_v37_apply, idx_meanrow2, idx_scalerow, mean_eq, scale_eq, hidden_eq]
  rfl

/-- The reference program's result is the specification: scale, shift, and the maximum with the zero word. -/
theorem ref_eq :
    val_main_v46 (F := Ideal) x0 x1 x2 x3 x4 x5 x6 x7 = Cert.GraphConv.output x0 x1 x2 x3 x4 x5 x6 x7 := by
  funext i
  obtain ⟨n, o, rfl⟩ : ∃ (n : Fin 8192) (o : Fin 128), i = ix2 n o := ⟨i 0, i 1, eq_ix2 i⟩
  rw [output_ix2, val_main_v46_apply, val_main_call1_v0_apply, val_main_call1_cst_apply, val_main_v45_apply,
    val_main_v44_apply, val_main_v43_apply, val_main_v42_apply, val_main_v41_apply, val_main_v40_apply,
    idx_gamma, idx_beta, normalised_eq]
  rfl

end Cert.GraphConv.Ref

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.FiniteFeatures.lean ====
/-
  Under the precondition every entry of the node features is a real number.

  The precondition is the conjunction, by `and`, of eight tests, one per argument array: each asks that every entry's
  absolute value compare below the word of plus infinity, and collects the answers by `and` into one bit.  The tests
  are joined from the left, so the first array's test is reached by taking the left conjunct seven times.  A test
  that is 1 says every entry is neither minus nor plus infinity, and an extended real that is neither is a real.
-/
import proofs.«100040_j88742614270232_2_alg».proof.Proof.Gen.Pre_finite_inputs
import proofs.«100040_j88742614270232_2_alg».proof.Proof.Gen.KernelIdeal
import proofs.«100040_j88742614270232_2_alg».proof.Defs
import proofs.«100040_j88742614270232_2_alg».proof.Proof.FoldLaws
import proofs.«100040_j88742614270232_2_alg».proof.Proof.LibFiniteEntries
import Idealize.ShloMosaic.Lib.Affine

noncomputable section

namespace Cert.GraphConv.Host

open Idealize.ShloMosaic

/-- An extended real that is neither infinity is a real number. -/
theorem exists_real_of_ne {x : EReal} (hb : x ≠ ⊥) (ht : x ≠ ⊤) : ∃ r : ℝ, x = (r : EReal) :=
  ⟨x.toReal, (EReal.coe_toReal ht hb).symm⟩

theorem real_features (m : (ℓ : Loc Cert.KernelIdeal.nD Cert.KernelIdeal.τ Cert.KernelIdeal.sig) → Buf (Elt Ideal) ℓ)
    (h : Cert.Pre_KernelIdeal m) (c : Dev Cert.KernelIdeal.nD) :
    Cert.GraphConv.RealEntries (m ((c.tc : Thread Cert.KernelIdeal.nD Cert.KernelIdeal.τ).loc Cert.KernelIdeal.main_arg0)) := by
  intro i
  have h0 := congrFun (h c) ValueIdx.ix0
  dsimp only [Cert.Pre_finite_inputs.fn, Cert.Pre_finite_inputs.fn_part1, Cert.Pre_finite_inputs.fn_part2] at h0
  have e := (IntOp.andi_eq_one.mp (IntOp.andi_eq_one.mp (IntOp.andi_eq_one.mp (IntOp.andi_eq_one.mp
    (IntOp.andi_eq_one.mp (IntOp.andi_eq_one.mp (IntOp.andi_eq_one.mp h0).1).1).1).1).1).1).1
  obtain ⟨hb, ht⟩ := Cert.FiniteEntries.arr_real _ _ _ _ e i
  exact exists_real_of_ne hb ht

end Cert.GraphConv.Host

end
-- ==== Proof.lean ====
/-
  The certificate of a graph convolution with mean aggregation, batch normalisation and a rectifier: a two-kernel
  program against its plain array reference, equal on the extended reals for finite inputs.

  The first kernel streams the adjacency matrix A once, by row tiles and column halves: for each half it accumulates
  over the sixteen row tiles the product of the tile's transpose with the node features X (taken as X plus X - X, the
  second part vanishing because X is finite), and it records each row's sum over the half's columns.  The second kernel
  adds the two partial degrees, replaces a zero degree by one, divides, applies the two linear heads and their biases,
  normalises every output channel over the 8192 nodes and rectifies.  The reference takes the row sums and the product
  with the transposed adjacency matrix whole.  Index by index both are the function `Cert.GraphConv.output` of the
  eight argument arrays: sums over tiles are re-associated (no finiteness needed) and the X - X terms are removed (the
  one place the precondition is used).

  The three frame claims are the programs' generated runs; the idealization rewrote one round trip between float
  formats, whose statement is the rule's own lemma.
-/
import proofs.«100040_j88742614270232_2_alg».proof.Defs
import proofs.«100040_j88742614270232_2_alg».proof.Proof.Gen.Kernel
import proofs.«100040_j88742614270232_2_alg».proof.Proof.Gen.Kernel.Skeleton
import proofs.«100040_j88742614270232_2_alg».proof.Proof.Gen.Kernel.Launch
import proofs.«100040_j88742614270232_2_alg».proof.Proof.Gen.Kernel.Points
import proofs.«100040_j88742614270232_2_alg».proof.Proof.Gen.Kernel.Frame
import proofs.«100040_j88742614270232_2_alg».proof.Proof.Gen.KernelIdeal
import proofs.«100040_j88742614270232_2_alg».proof.Proof.Gen.KernelIdeal.Skeleton
import proofs.«100040_j88742614270232_2_alg».proof.Proof.Gen.KernelIdeal.Launch
import proofs.«100040_j88742614270232_2_alg».proof.Proof.Gen.KernelIdeal.Points
import proofs.«100040_j88742614270232_2_alg».proof.Proof.Gen.KernelIdeal.Frame
import proofs.«100040_j88742614270232_2_alg».proof.Proof.Gen.ReferenceIdeal
import proofs.«100040_j88742614270232_2_alg».proof.Proof.Gen.ReferenceIdeal.Run
import proofs.«100040_j88742614270232_2_alg».proof.Proof.Gen.ReferenceIdeal.Read
import proofs.«100040_j88742614270232_2_alg».proof.Proof.Gen.Pre_finite_inputs
import proofs.«100040_j88742614270232_2_alg».proof.Proof.ResultValue
import proofs.«100040_j88742614270232_2_alg».proof.Proof.RefValue
import proofs.«100040_j88742614270232_2_alg».proof.Proof.FiniteFeatures
import Idealize.ShloMosaic.Adequacy
import Idealize.ShloMosaic.Init

noncomputable section

namespace Cert.Proof

open Idealize.ShloMosaic Idealize.SL.Sem Cert.Kernel

/-- The word-level kernel runs and leaves its arguments unchanged: its generated run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of array operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: widening a narrowed value gives the value back, on the extended reals. -/
theorem preserves : Cert.preserves_Kernel_KernelIdeal := IdealRules.truncf_extf.statement _ .f32 .bf16

/-- Both idealized programs end with the result array at the specification's function of the arguments: the kernel by
    its run read through the two regions (the node features are real numbers by the precondition), the reference by its
    generated run read one operation at a time; the two memories agree on the arguments. -/
theorem algebraic : Cert.algebraic_KernelIdeal_ReferenceIdeal := by
  intro m ρ m' ρ' hpre hagree
  refine ⟨_, Cert.GraphConv.Result.run m ρ (fun c => Cert.GraphConv.Host.real_features m hpre c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.GraphConv.Ref.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
